-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x64 : Shape := ⟨2, ![1024, 64]⟩
abbrev S32x1024x4096 : Shape := ⟨3, ![32, 1024, 4096]⟩
abbrev S32x4096 : Shape := ⟨2, ![32, 4096]⟩
abbrev S32x4096x1024 : Shape := ⟨3, ![32, 4096, 1024]⟩
abbrev S32x1024 : Shape := ⟨2, ![32, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S32x1024x4096 : S_.BroadcastsInDim S32x1024x4096 (![] : Fin 0 → Fin S32x1024x4096.rank)
  reducesTo_S32x1024x4096_S_d0_1_2 : S32x1024x4096.ReducesTo [0, 1, 2] S_
  bcast_S_S32x4096 : S_.BroadcastsInDim S32x4096 (![] : Fin 0 → Fin S32x4096.rank)
  reducesTo_S32x4096_S_d0_1 : S32x4096.ReducesTo [0, 1] S_
  bcast_S_S32x4096x1024 : S_.BroadcastsInDim S32x4096x1024 (![] : Fin 0 → Fin S32x4096x1024.rank)
  reducesTo_S32x4096x1024_S_d0_1_2 : S32x4096x1024.ReducesTo [0, 1, 2] S_
  bcast_S_S32x1024 : S_.BroadcastsInDim S32x1024 (![] : Fin 0 → Fin S32x1024.rank)
  reducesTo_S32x1024_S_d0_1 : S32x1024.ReducesTo [0, 1] S_

variable [Facts]

def fn_part1 {F : FTy → Type} [FloatOps F] (main_arg4 : FVec F S32x4096x1024 .f32) (main_arg5 : FVec F S32x1024 .f32) (main_v13 : IVec S_ 1) (main_v16 : IVec S32x4096 1) : IVec S_ 1 :=
  let main_c_5 : IVec S_ 1 := constantI S_ 1 1#1
  let main_v17 : IVec S_ 1 := (fun x v => Host.reduce IntOp.andi x v reducesTo_S32x4096_S_d0_1 h_S_) main_v16 main_c_5
  let main_v18 : IVec S_ 1 := andi main_v13 main_v17
  let main_v19 : FVec F S32x4096x1024 .f32 := Host.absf main_arg4
  let main_cst_6 : FVec F S_ .f32 := constant S_ .f32 0x7F800000#32
  let main_v20 : FVec F S32x4096x1024 .f32 := broadcastInDim S32x4096x1024 ![] bcast_S_S32x4096x1024 main_cst_6
  let main_v21 : IVec S32x4096x1024 1 := cmpf .olt main_v19 main_v20
  let main_c_7 : IVec S_ 1 := constantI S_ 1 1#1
  let main_v22 : IVec S_ 1 := (fun x v => Host.reduce IntOp.andi x v reducesTo_S32x4096x1024_S_d0_1_2 h_S_) main_v21 main_c_7
  let main_v23 : IVec S_ 1 := andi main_v18 main_v22
  let main_v24 : FVec F S32x1024 .f32 := Host.absf main_arg5
  let main_cst_8 : FVec F S_ .f32 := constant S_ .f32 0x7F800000#32
  let main_v25 : FVec F S32x1024 .f32 := broadcastInDim S32x1024 ![] bcast_S_S32x1024 main_cst_8
  let main_v26 : IVec S32x1024 1 := cmpf .olt main_v24 main_v25
  let main_c_9 : IVec S_ 1 := constantI S_ 1 1#1
  let main_v27 : IVec S_ 1 := (fun x v => Host.reduce IntOp.andi x v reducesTo_S32x1024_S_d0_1 h_S_) main_v26 main_c_9
  let main_v28 : IVec S_ 1 := andi main_v23 main_v27
  main_v28

def fn {F : FTy → Type} [FloatOps F] (main_arg0 : FVec F S4x2048x1024 .f32) (main_arg1 : FVec F S1024x64 .f32) (main_arg2 : FVec F S32x1024x4096 .f32) (main_arg3 : FVec F S32x4096 .f32) (main_arg4 : FVec F S32x4096x1024 .f32) (main_arg5 : FVec F S32x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S32x1024x4096 .f32 := Host.absf main_arg2
  let main_cst_2 : FVec F S_ .f32 := constant S_ .f32 0x7F800000#32
  let main_v10 : FVec F S32x1024x4096 .f32 := broadcastInDim S32x1024x4096 ![] bcast_S_S32x1024x4096 main_cst_2
  let main_v11 : IVec S32x1024x4096 1 := cmpf .olt main_v9 main_v10
  let main_c_3 : IVec S_ 1 := constantI S_ 1 1#1
  let main_v12 : IVec S_ 1 := (fun x v => Host.reduce IntOp.andi x v reducesTo_S32x1024x4096_S_d0_1_2 h_S_) main_v11 main_c_3
  let main_v13 : IVec S_ 1 := andi main_v8 main_v12
  let main_v14 : FVec F S32x4096 .f32 := Host.absf main_arg3
  let main_cst_4 : FVec F S_ .f32 := constant S_ .f32 0x7F800000#32
  let main_v15 : FVec F S32x4096 .f32 := broadcastInDim S32x4096 ![] bcast_S_S32x4096 main_cst_4
  let main_v16 : IVec S32x4096 1 := cmpf .olt main_v14 main_v15
  fn_part1 (F := F) main_arg4 main_arg5 main_v13 main_v16
-- ==== Kernel.lean ====
abbrev S4x2048x1024 : Shape := ⟨3, ![4, 2048, 1024]⟩
abbrev S1024x64 : Shape := ⟨2, ![1024, 64]⟩
abbrev S32x1024x4096 : Shape := ⟨3, ![32, 1024, 4096]⟩
abbrev S32x4096 : Shape := ⟨2, ![32, 4096]⟩
abbrev S32x4096x1024 : Shape := ⟨3, ![32, 4096, 1024]⟩
abbrev S32x1024 : Shape := ⟨2, ![32, 1024]⟩
abbrev S8192x1024 : Shape := ⟨2, ![8192, 1024]⟩
abbrev S8192x64 : Shape := ⟨2, ![8192, 64]⟩
abbrev S1024x1024 : Shape := ⟨2, ![1024, 1024]⟩
abbrev S_ : Shape := ⟨0, ![]⟩
abbrev S64 : Shape := ⟨1, ![64]⟩
abbrev S1x64 : Shape := ⟨2, ![1, 64]⟩
abbrev S8192 : Shape := ⟨1, ![8192]⟩
abbrev S8192x1 : Shape := ⟨2, ![8192, 1]⟩
abbrev S64x1024 : Shape := ⟨2, ![64, 1024]⟩
abbrev S32x2x1024 : Shape := ⟨3, ![32, 2, 1024]⟩
abbrev S32x1x4096 : Shape := ⟨3, ![32, 1, 4096]⟩
abbrev S32x1x1024 : Shape := ⟨3, ![32, 1, 1024]⟩
abbrev S1x2x1024 : Shape := ⟨3, ![1, 2, 1024]⟩
abbrev S1x1024x2048 : Shape := ⟨3, ![1, 1024, 2048]⟩
abbrev S1x1x2048 : Shape := ⟨3, ![1, 1, 2048]⟩
abbrev S1x2048x1024 : Shape := ⟨3, ![1, 2048, 1024]⟩
abbrev S1x1x1024 : Shape := ⟨3, ![1, 1, 1024]⟩
abbrev S2x1024 : Shape := ⟨2, ![2, 1024]⟩
abbrev S1024x2048 : Shape := ⟨2, ![1024, 2048]⟩
abbrev S2x2048 : Shape := ⟨2, ![2, 2048]⟩
abbrev S1x2048 : Shape := ⟨2, ![1, 2048]⟩
abbrev S2048x1024 : Shape := ⟨2, ![2048, 1024]⟩
abbrev S1x1024 : Shape := ⟨2, ![1, 1024]⟩

abbrev nBuf : Space → Nat
  | .hbm => 44
  | .vmem => 27
  | .smem => 0
  | _ => 0

abbrev bufTy : (tb : Table) → Fin (tcTables nBuf tb) → BufTy
  | .hbm, ⟨0, _⟩ => ⟨S4x2048x1024, .f32⟩
  | .hbm, ⟨1, _⟩ => ⟨S1024x64, .f32⟩
  | .hbm, ⟨2, _⟩ => ⟨S32x1024x4096, .f32⟩
  | .hbm, ⟨3, _⟩ => ⟨S32x4096, .f32⟩
  | .hbm, ⟨4, _⟩ => ⟨S32x4096x1024, .f32⟩
  | .hbm, ⟨5, _⟩ => ⟨S32x1024, .f32⟩
  | .hbm, ⟨6, _⟩ => ⟨S8192x1024, .f32⟩
  | .hbm, ⟨7, _⟩ => ⟨S8192x64, .f32⟩
  | .hbm, ⟨8, _⟩ => ⟨S_, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S1x64, .f32⟩
  | .hbm, ⟨14, _⟩ => ⟨S8192x64, .f32⟩
  | .hbm, ⟨15, _⟩ => ⟨S8192x64, .f32⟩
  | .hbm, ⟨16, _⟩ => ⟨S8192x64, .f32⟩
  | .hbm, ⟨17, _⟩ => ⟨S_, .f32⟩
  | .hbm, ⟨18, _⟩ => ⟨S64, .f32⟩
  | .hbm, ⟨19, _⟩ => ⟨S1x64, .f32⟩
  | .hbm, ⟨20, _⟩ => ⟨S8192x64, .f32⟩
  | .hbm, ⟨21, _⟩ => ⟨S8192x64, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S8192x1, .f32⟩
  | .hbm, ⟨28, _⟩ => ⟨S8192x64, .f32⟩
  | .hbm, ⟨29, _⟩ => ⟨S8192x64, .f32⟩
  | .hbm, ⟨30, _⟩ => ⟨S8192x64, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S8192x64, .f32⟩
  | .hbm, ⟨35, _⟩ => ⟨S8192x64, .f32⟩
  | .hbm, ⟨36, _⟩ => ⟨S64x1024, .f32⟩
  | .hbm, ⟨37, _⟩ => ⟨S32x2x1024, .f32⟩
  | .hbm, ⟨38, _⟩ => ⟨S32x1x4096, .f32⟩
  | .hbm, ⟨39, _⟩ => ⟨S32x1x1024, .f32⟩
  | .hbm, ⟨40, _⟩ => ⟨S32x2x1024, .f32⟩
  | .hbm, ⟨41, _⟩ => ⟨S64x1024, .f32⟩
  | .hbm, ⟨42, _⟩ => ⟨S8192x1024, .f32⟩
  | .hbm, ⟨43, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | .local _ .vmem, ⟨7, _⟩ => ⟨S1024x1024, .f32⟩
  | .local _ .vmem, ⟨8, _⟩ => ⟨S1024x1024, .f32⟩
  | .local _ .vmem, ⟨9, _⟩ => ⟨S64x1024, .f32⟩
  | .local _ .vmem, ⟨10, _⟩ => ⟨S1x2x1024, .f32⟩
  | .local _ .vmem, ⟨11, _⟩ => ⟨S1x2x1024, .f32⟩
  | .local _ .vmem, ⟨12, _⟩ => ⟨S1x1024x2048, .f32⟩
  | .local _ .vmem, ⟨13, _⟩ => ⟨S1x1024x2048, .f32⟩
  | .local _ .vmem, ⟨14, _⟩ => ⟨S1x1x2048, .f32⟩
  | .local _ .vmem, ⟨15, _⟩ => ⟨S1x1x2048, .f32⟩
  | .local _ .vmem, ⟨16, _⟩ => ⟨S1x2048x1024, .f32⟩
  | .local _ .vmem, ⟨17, _⟩ => ⟨S1x2048x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x2x1024, .f32⟩
  | .local _ .vmem, ⟨21, _⟩ => ⟨S1x2x1024, .f32⟩
  | .local _ .vmem, ⟨22, _⟩ => ⟨S1024x64, .f32⟩
  | .local _ .vmem, ⟨23, _⟩ => ⟨S1024x64, .f32⟩
  | .local _ .vmem, ⟨24, _⟩ => ⟨S64x1024, .f32⟩
  | .local _ .vmem, ⟨25, _⟩ => ⟨S1024x1024, .f32⟩
  | .local _ .vmem, ⟨26, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg5_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem4_1 : DmaSem sig := 19
abbrev cc2_sem5_0 : DmaSem sig := 20
abbrev cc2_sem5_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨2, ![32, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x2x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x1024x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x1x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x2048x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x1x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1x2x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  shapeCasts_S4x2048x1024_S8192x1024 : S4x2048x1024.ShapeCasts S8192x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  reducesTo_S8192x64_S64_d0 : S8192x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  reducesTo_S8192x64_S8192_d1 : S8192x64.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  inb_S64x1024_S64x1024_0_0 : ∀ a, (![0, 0] : Fin 2 → Nat) a + S64x1024.size a ≤ S64x1024.size a
  h_S64x1024 : 0 < S64x1024.numel
  shapeCasts_S1024x64_S1024x64 : S1024x64.ShapeCasts S1024x64
  shapeCasts_S64x1024_S64x1024 : S64x1024.ShapeCasts S64x1024
  shapeCasts_S64x1024_S32x2x1024 : S64x1024.ShapeCasts S32x2x1024
  shapeCasts_S32x4096_S32x1x4096 : S32x4096.ShapeCasts S32x1x4096
  shapeCasts_S32x1024_S32x1x1024 : S32x1024.ShapeCasts S32x1x1024
  inb_S1x2x1024_S1x2x1024_0_0_0 : ∀ a, (![0, 0, 0] : Fin 3 → Nat) a + S1x2x1024.size a ≤ S1x2x1024.size a
  h_S1x2x1024 : 0 < S1x2x1024.numel
  shapeCasts_S1x2x1024_S2x1024 : S1x2x1024.ShapeCasts S2x1024
  shapeCasts_S2x1024_S1x2x1024 : S2x1024.ShapeCasts S1x2x1024
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S2x2048 : S1x2048.Broadcasts S2x2048
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S2x1024 : S1x1024.Broadcasts S2x1024
  shapeCasts_S32x2x1024_S64x1024 : S32x2x1024.ShapeCasts S64x1024
  shapeCasts_S8192x1024_S4x2048x1024 : S8192x1024.ShapeCasts S4x2048x1024
  dot_S1024x1024_S1024x64_S1024x64_1_0_0_1_n_n_wf : DotDims.WF S1024x1024 S1024x64 S1024x64 [1] [0] [0] [1] [] []
  dot_S1024x64_S1024x1024_S64x1024_0_0_1_1_n_n_wf : DotDims.WF S1024x64 S1024x1024 S64x1024 [0] [0] [1] [1] [] []
  dot_S2x1024_S1024x2048_S2x2048_1_0_0_1_n_n_wf : DotDims.WF S2x1024 S1024x2048 S2x2048 [1] [0] [0] [1] [] []
  dot_S2x2048_S2048x1024_S2x1024_1_0_0_1_n_n_wf : DotDims.WF S2x2048 S2048x1024 S2x1024 [1] [0] [0] [1] [] []
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S8192x64.size a
  hwx0_2 : ∀ i : grid0.Coords, EltTy.bits .f32 = 32 ∨ (Rect.block (s := S8192x64) S1024x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S8192x64.size a
  hwx1_0 : ∀ i : grid1.Coords, EltTy.bits .f32 = 32 ∨ (Rect.block (s := S8192x64) S1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x1024.size a
  hwx1_1 : ∀ i : grid1.Coords, EltTy.bits .f32 = 32 ∨ (Rect.block (s := S8192x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x1024.size a ≤ S64x1024.size a
  hwx1_2 : ∀ i : grid1.Coords, EltTy.bits .f32 = 32 ∨ (Rect.block (s := S64x1024) S64x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x2x1024.size a ≤ S32x2x1024.size a
  hwx2_0 : ∀ i : grid2.Coords, EltTy.bits .f32 = 32 ∨ (Rect.block (s := S32x2x1024) S1x2x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024x2048.size a ≤ S32x1024x4096.size a
  hwx2_1 : ∀ i : grid2.Coords, EltTy.bits .f32 = 32 ∨ (Rect.block (s := S32x1024x4096) S1x1024x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x2048.size a ≤ S32x1x4096.size a
  hwx2_2 : ∀ i : grid2.Coords, EltTy.bits .f32 = 32 ∨ (Rect.block (s := S32x1x4096) S1x1x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x2048x1024.size a ≤ S32x4096x1024.size a
  hwx2_3 : ∀ i : grid2.Coords, EltTy.bits .f32 = 32 ∨ (Rect.block (s := S32x4096x1024) S1x2048x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1x1024.size a ≤ S32x1x1024.size a
  hwx2_4 : ∀ i : grid2.Coords, EltTy.bits .f32 = 32 ∨ (Rect.block (s := S32x1x1024) S1x1x1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x2x1024.size a ≤ S32x2x1024.size a
  hwx2_5 : ∀ i : grid2.Coords, EltTy.bits .f32 = 32 ∨ (Rect.block (s := S32x2x1024) S1x2x1024.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x64.size a ≤ S8192x64.size a
  hwx3_0 : ∀ i : grid3.Coords, EltTy.bits .f32 = 32 ∨ (Rect.block (s := S8192x64) S1024x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x1024.size a ≤ S64x1024.size a
  hwx3_1 : ∀ i : grid3.Coords, EltTy.bits .f32 = 32 ∨ (Rect.block (s := S64x1024) S64x1024.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1024.size a ≤ S8192x1024.size a
  hwx3_2 : ∀ i : grid3.Coords, EltTy.bits .f32 = 32 ∨ (Rect.block (s := S8192x1024) S1024x1024.size (cc3_transform_2 i) (hinb3_2 i)).WholeWords (EltTy.packing .f32)

variable [Facts₀]

def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S1024x1024_S64x1024_0_0_1_1_n_n : DotDims S1024x64 S1024x1024 S64x1024 where
  lhsContracting := [0]
  rhsContracting := [0]
  lhsNonContracting := [1]
  rhsNonContracting := [1]
  lhsBatch := []
  rhsBatch := []
  wf := dot_S1024x64_S1024x1024_S64x1024_0_0_1_1_n_n_wf
def dot_S2x1024_S1024x2048_S2x2048_1_0_0_1_n_n : DotDims S2x1024 S1024x2048 S2x2048 where
  lhsContracting := [1]
  rhsContracting := [0]
  lhsNonContracting := [0]
  rhsNonContracting := [1]
  lhsBatch := []
  rhsBatch := []
  wf := dot_S2x1024_S1024x2048_S2x2048_1_0_0_1_n_n_wf
def dot_S2x2048_S2048x1024_S2x1024_1_0_0_1_n_n : DotDims S2x2048 S2048x1024 S2x1024 where
  lhsContracting := [1]
  rhsContracting := [0]
  lhsNonContracting := [0]
  rhsNonContracting := [1]
  lhsBatch := []
  rhsBatch := []
  wf := dot_S2x2048_S2048x1024_S2x1024_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v12) S1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S64x1024.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v25) S1x2x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S1x1024x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26) S1x1x2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S1x2048x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v27) S1x1x1024.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v28) S1x2x1024.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v23) S1024x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29) S64x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v30) S1024x1024.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S4x2048x1024 : Shape := ⟨3, ![4, 2048, 1024]⟩
abbrev S1024x64 : Shape := ⟨2, ![1024, 64]⟩
abbrev S32x1024x4096 : Shape := ⟨3, ![32, 1024, 4096]⟩
abbrev S32x4096 : Shape := ⟨2, ![32, 4096]⟩
abbrev S32x4096x1024 : Shape := ⟨3, ![32, 4096, 1024]⟩
abbrev S32x1024 : Shape := ⟨2, ![32, 1024]⟩
abbrev S8192x1024 : Shape := ⟨2, ![8192, 1024]⟩
abbrev S8192x64 : Shape := ⟨2, ![8192, 64]⟩
abbrev S_ : Shape := ⟨0, ![]⟩
abbrev S64 : Shape := ⟨1, ![64]⟩
abbrev S1x64 : Shape := ⟨2, ![1, 64]⟩
abbrev S8192 : Shape := ⟨1, ![8192]⟩
abbrev S8192x1 : Shape := ⟨2, ![8192, 1]⟩
abbrev S64x8192 : Shape := ⟨2, ![64, 8192]⟩
abbrev S64x1024 : Shape := ⟨2, ![64, 1024]⟩
abbrev S32x2x1024 : Shape := ⟨3, ![32, 2, 1024]⟩
abbrev S32x2x4096 : Shape := ⟨3, ![32, 2, 4096]⟩
abbrev S32x1x4096 : Shape := ⟨3, ![32, 1, 4096]⟩
abbrev S32x1x1024 : Shape := ⟨3, ![32, 1, 1024]⟩

abbrev nBuf : Space → Nat
  | .hbm => 67
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x64, .f32⟩
  | .hbm, ⟨2, _⟩ => ⟨S32x1024x4096, .f32⟩
  | .hbm, ⟨3, _⟩ => ⟨S32x4096, .f32⟩
  | .hbm, ⟨4, _⟩ => ⟨S32x4096x1024, .f32⟩
  | .hbm, ⟨5, _⟩ => ⟨S32x1024, .f32⟩
  | .hbm, ⟨6, _⟩ => ⟨S8192x1024, .f32⟩
  | .hbm, ⟨7, _⟩ => ⟨S8192x64, .f32⟩
  | .hbm, ⟨8, _⟩ => ⟨S_, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S1x64, .f32⟩
  | .hbm, ⟨14, _⟩ => ⟨S8192x64, .f32⟩
  | .hbm, ⟨15, _⟩ => ⟨S8192x64, .f32⟩
  | .hbm, ⟨16, _⟩ => ⟨S8192x64, .f32⟩
  | .hbm, ⟨17, _⟩ => ⟨S_, .f32⟩
  | .hbm, ⟨18, _⟩ => ⟨S64, .f32⟩
  | .hbm, ⟨19, _⟩ => ⟨S1x64, .f32⟩
  | .hbm, ⟨20, _⟩ => ⟨S8192x64, .f32⟩
  | .hbm, ⟨21, _⟩ => ⟨S8192x64, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S8192x1, .f32⟩
  | .hbm, ⟨28, _⟩ => ⟨S8192x64, .f32⟩
  | .hbm, ⟨29, _⟩ => ⟨S8192x64, .f32⟩
  | .hbm, ⟨30, _⟩ => ⟨S8192x64, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S8192x64, .f32⟩
  | .hbm, ⟨35, _⟩ => ⟨S8192x64, .f32⟩
  | .hbm, ⟨36, _⟩ => ⟨S64x8192, .f32⟩
  | .hbm, ⟨37, _⟩ => ⟨S64x1024, .f32⟩
  | .hbm, ⟨38, _⟩ => ⟨S32x2x1024, .f32⟩
  | .hbm, ⟨39, _⟩ => ⟨S32x2x4096, .f32⟩
  | .hbm, ⟨40, _⟩ => ⟨S32x1x4096, .f32⟩
  | .hbm, ⟨41, _⟩ => ⟨S32x2x4096, .f32⟩
  | .hbm, ⟨42, _⟩ => ⟨S32x2x4096, .f32⟩
  | .hbm, ⟨43, _⟩ => ⟨S32x2x4096, .f32⟩
  | .hbm, ⟨44, _⟩ => ⟨S32x2x4096, .f32⟩
  | .hbm, ⟨45, _⟩ => ⟨S_, .f32⟩
  | .hbm, ⟨46, _⟩ => ⟨S32x2x4096, .f32⟩
  | .hbm, ⟨47, _⟩ => ⟨S32x2x4096, .f32⟩
  | .hbm, ⟨48, _⟩ => ⟨S32x2x4096, .f32⟩
  | .hbm, ⟨49, _⟩ => ⟨S_, .f32⟩
  | .hbm, ⟨50, _⟩ => ⟨S32x2x4096, .f32⟩
  | .hbm, ⟨51, _⟩ => ⟨S32x2x4096, .f32⟩
  | .hbm, ⟨52, _⟩ => ⟨S32x2x4096, .f32⟩
  | .hbm, ⟨53, _⟩ => ⟨S_, .f32⟩
  | .hbm, ⟨54, _⟩ => ⟨S32x2x4096, .f32⟩
  | .hbm, ⟨55, _⟩ => ⟨S32x2x4096, .f32⟩
  | .hbm, ⟨56, _⟩ => ⟨S_, .f32⟩
  | .hbm, ⟨57, _⟩ => ⟨S32x2x4096, .f32⟩
  | .hbm, ⟨58, _⟩ => ⟨S32x2x4096, .f32⟩
  | .hbm, ⟨59, _⟩ => ⟨S32x2x4096, .f32⟩
  | .hbm, ⟨60, _⟩ => ⟨S32x2x1024, .f32⟩
  | .hbm, ⟨61, _⟩ => ⟨S32x1x1024, .f32⟩
  | .hbm, ⟨62, _⟩ => ⟨S32x2x1024, .f32⟩
  | .hbm, ⟨63, _⟩ => ⟨S32x2x1024, .f32⟩
  | .hbm, ⟨64, _⟩ => ⟨S64x1024, .f32⟩
  | .hbm, ⟨65, _⟩ => ⟨S8192x1024, .f32⟩
  | .hbm, ⟨66, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]

class Facts₀ : Prop where
  shapeCasts_S4x2048x1024_S8192x1024 : S4x2048x1024.ShapeCasts S8192x1024
  reducesTo_S8192x64_S64_d0 : S8192x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  reducesTo_S8192x64_S8192_d1 : S8192x64.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  transposes_S8192x64_S64x8192_1_0 : S8192x64.Transposes [1, 0] S64x8192
  shapeCasts_S64x1024_S32x2x1024 : S64x1024.ShapeCasts S32x2x1024
  bcast_S32x4096_S32x1x4096_0_2 : S32x4096.BroadcastsInDim S32x1x4096 (![0, 2] : Fin 2 → Fin S32x1x4096.rank)
  bcast_S32x1x4096_S32x2x4096_0_1_2 : S32x1x4096.BroadcastsInDim S32x2x4096 (![0, 1, 2] : Fin 3 → Fin S32x2x4096.rank)
  bcast_S_S32x2x4096 : S_.BroadcastsInDim S32x2x4096 (![] : Fin 0 → Fin S32x2x4096.rank)
  bcast_S32x1024_S32x1x1024_0_2 : S32x1024.BroadcastsInDim S32x1x1024 (![0, 2] : Fin 2 → Fin S32x1x1024.rank)
  bcast_S32x1x1024_S32x2x1024_0_1_2 : S32x1x1024.BroadcastsInDim S32x2x1024 (![0, 1, 2] : Fin 3 → Fin S32x2x1024.rank)
  shapeCasts_S32x2x1024_S64x1024 : S32x2x1024.ShapeCasts S64x1024
  shapeCasts_S8192x1024_S4x2048x1024 : S8192x1024.ShapeCasts S4x2048x1024
  dot_S8192x1024_S1024x64_S8192x64_1_0_0_1_n_n_wf : DotDims.WF S8192x1024 S1024x64 S8192x64 [1] [0] [0] [1] [] []
  dot_S64x8192_S8192x1024_S64x1024_1_0_0_1_n_n_wf : DotDims.WF S64x8192 S8192x1024 S64x1024 [1] [0] [0] [1] [] []
  dot_S32x2x1024_S32x1024x4096_S32x2x4096_2_1_1_2_0_0_wf : DotDims.WF S32x2x1024 S32x1024x4096 S32x2x4096 [2] [1] [1] [2] [0] [0]
  dot_S32x2x4096_S32x4096x1024_S32x2x1024_2_1_1_2_0_0_wf : DotDims.WF S32x2x4096 S32x4096x1024 S32x2x1024 [2] [1] [1] [2] [0] [0]
  dot_S8192x64_S64x1024_S8192x1024_1_0_0_1_n_n_wf : DotDims.WF S8192x64 S64x1024 S8192x1024 [1] [0] [0] [1] [] []

variable [Facts₀]

def dot_S8192x1024_S1024x64_S8192x64_1_0_0_1_n_n : DotDims S8192x1024 S1024x64 S8192x64 where
  lhsContracting := [1]
  rhsContracting := [0]
  lhsNonContracting := [0]
  rhsNonContracting := [1]
  lhsBatch := []
  rhsBatch := []
  wf := dot_S8192x1024_S1024x64_S8192x64_1_0_0_1_n_n_wf
def dot_S64x8192_S8192x1024_S64x1024_1_0_0_1_n_n : DotDims S64x8192 S8192x1024 S64x1024 where
  lhsContracting := [1]
  rhsContracting := [0]
  lhsNonContracting := [0]
  rhsNonContracting := [1]
  lhsBatch := []
  rhsBatch := []
  wf := dot_S64x8192_S8192x1024_S64x1024_1_0_0_1_n_n_wf
def dot_S32x2x1024_S32x1024x4096_S32x2x4096_2_1_1_2_0_0 : DotDims S32x2x1024 S32x1024x4096 S32x2x4096 where
  lhsContracting := [2]
  rhsContracting := [1]
  lhsNonContracting := [1]
  rhsNonContracting := [2]
  lhsBatch := [0]
  rhsBatch := [0]
  wf := dot_S32x2x1024_S32x1024x4096_S32x2x4096_2_1_1_2_0_0_wf
def dot_S32x2x4096_S32x4096x1024_S32x2x1024_2_1_1_2_0_0 : DotDims S32x2x4096 S32x4096x1024 S32x2x1024 where
  lhsContracting := [2]
  rhsContracting := [1]
  lhsNonContracting := [1]
  rhsNonContracting := [2]
  lhsBatch := [0]
  rhsBatch := [0]
  wf := dot_S32x2x4096_S32x4096x1024_S32x2x1024_2_1_1_2_0_0_wf
def dot_S8192x64_S64x1024_S8192x1024_1_0_0_1_n_n : DotDims S8192x64 S64x1024 S8192x1024 where
  lhsContracting := [1]
  rhsContracting := [0]
  lhsNonContracting := [0]
  rhsNonContracting := [1]
  lhsBatch := []
  rhsBatch := []
  wf := dot_S8192x64_S64x1024_S8192x1024_1_0_0_1_n_n_wf

class Facts : Prop extends Facts₀ where

variable [Facts]
-- ==== Proof.KernelRun.lean ====
/-
  The idealized kernel's run with its result kept: every weakly fair execution of @main terminates, nothing
  faulting, and in every final state the result array holds what the last host stretch leaves in it — the last
  boundary's contents, a fold from the launch memory through the four regions and the five host stretches — and
  the six argument arrays are as launched.
-/
import proofs.«138696_j23819888624292_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the nine segments, read at the result array as well as at the arguments: the last thread state holds
    every unscoped buffer at the last boundary's contents, and the result array is one of them. -/
theorem run_result : θ_run defs (onTc (τ := τ) (main (F := F))) ⟨m, fun _ => 0, ρ⟩ (fun r => ∀ c : Dev nD,
      r.2.mem ((c.tc : Thread nD τ).loc main_v31) = W9 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v31 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.RunValue

end
-- ==== Proof.Spec.lean ====
/-
  The layer both programs compute, as one function of the six argument arrays, written with the operations of the
  reference so that the reference's own result term is this function by unfolding.

  A soft mixture of experts over 8192 = 4 · 2048 tokens of width 1024 with 64 = 32 · 2 slots:
    toks    the tokens as an 8192 × 1024 matrix;
    logits  toks · W, an 8192 × 64 matrix;
    dispatch, combineWeights   the softmax of the logits down each column (over tokens), and along each row (over slots);
    slotInputs   dispatchᵀ · toks, a 64 × 1024 matrix, regrouped as 32 experts × 2 slots;
    experts      per expert e and slot p: gelu(x · w1[e] + b1[e]) · w2[e] + b2[e], gelu in its tanh form;
    mixture      combineWeights · (the 64 expert outputs as rows), regrouped as 4 × 2048 × 1024.
  Every product is the host's dot_general, so at the extended reals each is a plain finite sum of products.
-/
import proofs.«138696_j23819888624292_1_alg».proof.Proof.Gen.ReferenceIdeal
import Idealize.ShloMosaic.PureOps.Ideal

noncomputable section

namespace Cert.SoftMoe

open Cert.ReferenceIdeal Cert.ReferenceIdeal.Gen Idealize.ShloMosaic Idealize.ShloMosaic.TcCoe

variable {F : FTy → Type} [FloatOps F]

/-- An f32 array of shape `s`. -/
abbrev Arr (F : FTy → Type) (s : Shape) : Type := (⟨s, .f32⟩ : BufTy).Contents (Elt F)

/-- The tokens as an 8192 × 1024 matrix: row 2048·b + t is token t of batch b. -/
def toks (a0 : Arr F S4x2048x1024) : Arr F S8192x1024 :=
  shapeCast _ a0 shapeCasts_S4x2048x1024_S8192x1024

/-- The logits: entry (r, n) is the inner product of token r with column n of W. -/
def logits (t : Arr F S8192x1024) (w : Arr F S1024x64) : Arr F S8192x64 :=
  Host.dotGeneral dot_S8192x1024_S1024x64_S8192x64_1_0_0_1_n_n none t w

/-- The softmax of each column of the logits (over the 8192 tokens), the column's maximum taken from -inf. -/
def dispatch (x : Arr F S8192x64) : Arr F S8192x64 :=
  Host.divf
    (Host.exp (subf x (broadcastInDim S8192x64 ![0, 1] bcast_S1x64_S8192x64_0_1 (broadcastInDim S1x64 ![1] bcast_S64_S1x64_1
      (maximumf (broadcastInDim S64 ![] bcast_S_S64 (constant S_ .f32 0xFF800000#32))
        (Host.reduce FloatOps.maximumf x (constant S_ .f32 0xFF800000#32) reducesTo_S8192x64_S64_d0 h_S_))))))
    (broadcastInDim S8192x64 ![0, 1] bcast_S1x64_S8192x64_0_1 (broadcastInDim S1x64 ![1] bcast_S64_S1x64_1
      (Host.reduceAdd
        (Host.exp (subf x (broadcastInDim S8192x64 ![0, 1] bcast_S1x64_S8192x64_0_1 (broadcastInDim S1x64 ![1] bcast_S64_S1x64_1
          (maximumf (broadcastInDim S64 ![] bcast_S_S64 (constant S_ .f32 0xFF800000#32))
            (Host.reduce FloatOps.maximumf x (constant S_ .f32 0xFF800000#32) reducesTo_S8192x64_S64_d0 h_S_))))))
        (constant S_ .f32 0x00000000#32) reducesTo_S8192x64_S64_d0 h_S_)))

/-- The softmax of each row of the logits (over the 64 slots), the row's maximum taken from -inf. -/
def combineWeights (x : Arr F S8192x64) : Arr F S8192x64 :=
  Host.divf
    (Host.exp (subf x (broadcastInDim S8192x64 ![0, 1] bcast_S8192x1_S8192x64_0_1 (broadcastInDim S8192x1 ![0] bcast_S8192_S8192x1_0
      (maximumf (broadcastInDim S8192 ![] bcast_S_S8192 (constant S_ .f32 0xFF800000#32))
        (Host.reduce FloatOps.maximumf x (constant S_ .f32 0xFF800000#32) reducesTo_S8192x64_S8192_d1 h_S_))))))
    (broadcastInDim S8192x64 ![0, 1] bcast_S8192x1_S8192x64_0_1 (broadcastInDim S8192x1 ![0] bcast_S8192_S8192x1_0
      (Host.reduceAdd
        (Host.exp (subf x (broadcastInDim S8192x64 ![0, 1] bcast_S8192x1_S8192x64_0_1 (broadcastInDim S8192x1 ![0] bcast_S8192_S8192x1_0
          (maximumf (broadcastInDim S8192 ![] bcast_S_S8192 (constant S_ .f32 0xFF800000#32))
            (Host.reduce FloatOps.maximumf x (constant S_ .f32 0xFF800000#32) reducesTo_S8192x64_S8192_d1 h_S_))))))
        (constant S_ .f32 0x00000000#32) reducesTo_S8192x64_S8192_d1 h_S_)))

/-- The slot inputs: entry (n, d) is the sum over all 8192 tokens r of dispatch (r, n) · toks (r, d). -/
def slotInputs (rp : Arr F S8192x64) (t : Arr F S8192x1024) : Arr F S64x1024 :=
  Host.dotGeneral dot_S64x8192_S8192x1024_S64x1024_1_0_0_1_n_n none
    (transpose S64x8192 [1, 0] rp transposes_S8192x64_S64x8192_1_0) t

/-- Row 2·e + p of a 64 × 1024 matrix as slot p of expert e. -/
def bySlot (x : Arr F S64x1024) : Arr F S32x2x1024 := shapeCast _ x shapeCasts_S64x1024_S32x2x1024

/-- A per-expert bias row [32, n] with a unit slot axis put in: [32, 1, n]. -/
def biasRow1 (b1 : Arr F S32x4096) : Arr F S32x1x4096 := broadcastInDim S32x1x4096 ![0, 2] bcast_S32x4096_S32x1x4096_0_2 b1
def biasRow2 (b2 : Arr F S32x1024) : Arr F S32x1x1024 := broadcastInDim S32x1x1024 ![0, 2] bcast_S32x1024_S32x1x1024_0_2 b2

/-- The hidden pre-activations: entry (e, p, h) is Σ_k xs (e, p, k) · w1 (e, k, h) + b1 (e, 0, h). -/
def hidden (xs : Arr F S32x2x1024) (w1 : Arr F S32x1024x4096) (b1r : Arr F S32x1x4096) : Arr F S32x2x4096 :=
  addf (Host.dotGeneral dot_S32x2x1024_S32x1024x4096_S32x2x4096_2_1_1_2_0_0 none xs w1)
    (broadcastInDim S32x2x4096 ![0, 1, 2] bcast_S32x1x4096_S32x2x4096_0_1_2 b1r)

/-- gelu in its tanh form, entry by entry: h · (1/2 · (1 + tanh (c₁ · (h + c₀ · ((h · h) · h))))). -/
def gelu (h : Arr F S32x2x4096) : Arr F S32x2x4096 :=
  mulf h (mulf (broadcastInDim S32x2x4096 ![] bcast_S_S32x2x4096 (constant S_ .f32 0x3F000000#32))
    (addf (broadcastInDim S32x2x4096 ![] bcast_S_S32x2x4096 (constant S_ .f32 0x3F800000#32))
      (Host.tanh (mulf (broadcastInDim S32x2x4096 ![] bcast_S_S32x2x4096 (constant S_ .f32 0x3F4C422A#32))
        (addf h (mulf (broadcastInDim S32x2x4096 ![] bcast_S_S32x2x4096 (constant S_ .f32 0x3D372713#32))
          (mulf (mulf h h) h)))))))

/-- The experts: entry (e, p, d) is Σ_h gelu (hidden) (e, p, h) · w2 (e, h, d) + b2 (e, 0, d). -/
def experts (xs : Arr F S32x2x1024) (w1 : Arr F S32x1024x4096) (b1r : Arr F S32x1x4096)
    (w2 : Arr F S32x4096x1024) (b2r : Arr F S32x1x1024) : Arr F S32x2x1024 :=
  addf (Host.dotGeneral dot_S32x2x4096_S32x4096x1024_S32x2x1024_2_1_1_2_0_0 none (gelu (hidden xs w1 b1r)) w2)
    (broadcastInDim S32x2x1024 ![0, 1, 2] bcast_S32x1x1024_S32x2x1024_0_1_2 b2r)

/-- Slot p of expert e as row 2·e + p of a 64 × 1024 matrix. -/
def asRows (ys : Arr F S32x2x1024) : Arr F S64x1024 := shapeCast _ ys shapeCasts_S32x2x1024_S64x1024

/-- The mixture: entry (r, d) is Σ_n combineWeights (r, n) · yhat (n, d). -/
def mixture (cp : Arr F S8192x64) (yh : Arr F S64x1024) : Arr F S8192x1024 :=
  Host.dotGeneral dot_S8192x64_S64x1024_S8192x1024_1_0_0_1_n_n none cp yh

/-- An 8192 × 1024 matrix back as 4 × 2048 × 1024. -/
def byBatch (y : Arr F S8192x1024) : Arr F S4x2048x1024 := shapeCast _ y shapeCasts_S8192x1024_S4x2048x1024

/-- The whole layer, given the bias rows already carrying their unit slot axis. -/
def layerOf (a0 : Arr F S4x2048x1024) (a1 : Arr F S1024x64) (a2 : Arr F S32x1024x4096) (b1r : Arr F S32x1x4096)
    (a4 : Arr F S32x4096x1024) (b2r : Arr F S32x1x1024) : Arr F S4x2048x1024 :=
  byBatch (mixture (combineWeights (logits (toks a0) a1))
    (asRows (experts (bySlot (slotInputs (dispatch (logits (toks a0) a1)) (toks a0))) a2 b1r a4 b2r)))

/-- The whole layer as a function of the six arguments. -/
def layer (a0 : Arr F S4x2048x1024) (a1 : Arr F S1024x64) (a2 : Arr F S32x1024x4096) (a3 : Arr F S32x4096)
    (a4 : Arr F S32x4096x1024) (a5 : Arr F S32x1024) : Arr F S4x2048x1024 :=
  layerOf a0 a1 a2 (biasRow1 a3) a4 (biasRow2 a5)

end Cert.SoftMoe

end
-- ==== Proof.KernelWalk.lean ====
/-
  The idealized kernel's result array, walked back from the last boundary of its run to the launch memory.
  The run alternates host stretches and regions. A host stretch leaves in each buffer it writes its operation of the
  buffers it reads and leaves every other buffer alone; a region leaves in its output array what its grid points
  wrote back and leaves every other buffer, its input arrays included, alone. Composing these from the return to the
  launch: result = regroup (mixture (row softmax of the logits) (rows of (experts (slots of (slot inputs (column
  softmax of the logits) tokens)) w1 b1 w2 b2))), the logits those of the tokens and the router matrix, the two bias
  arrays carried with a unit slot axis put in by a reshape. The four facts about what a region leaves in its output
  array are taken as hypotheses here.
-/
import proofs.«138696_j23819888624292_1_alg».proof.Proof.Spec
import proofs.«138696_j23819888624292_1_alg».proof.Proof.Gen.KernelIdeal.Frame
import Idealize.ShloMosaic.Lib.StableHlo.Run
import Idealize.ShloMosaic.Lib.Pipeline.Value

set_option maxRecDepth 16384

noncomputable section

namespace Cert.KernelIdeal.Walk

open Cert.KernelIdeal Cert.KernelIdeal.Gen Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## Buffers a segment leaves alone -/

theorem keep_v0_3 (c : Dev nD) : W3 m ρ c (Proc.devRef .tc main_v0) = W2 m ρ c (Proc.devRef .tc main_v0) := by
  show StableHlo.after hostOps1 (W2 m ρ c) (Proc.devRef .tc main_v0) = W2 m ρ c (Proc.devRef .tc main_v0)
  after_results
theorem keep_v0_2 (c : Dev nD) : W2 m ρ c (Proc.devRef .tc main_v0) = W1 m ρ c (Proc.devRef .tc main_v0) := (W2_arr m ρ c 0).trans (((dat0 (V1 m ρ) c).arrAt_in 0 rfl _).trans (A_eq0 (V1 m ρ) c 0))
theorem keep_arg1_1 (c : Dev nD) : W1 m ρ c (Proc.devRef .tc main_arg1) = W0 m ρ c (Proc.devRef .tc main_arg1) := by
  show StableHlo.after hostOps0 (W0 m ρ c) (Proc.devRef .tc main_arg1) = W0 m ρ c (Proc.devRef .tc main_arg1)
  after_results
theorem keep_arg3_4 (c : Dev nD) : W4 m ρ c (Proc.devRef .tc main_arg3) = W3 m ρ c (Proc.devRef .tc main_arg3) := W4_of_ne m ρ c main_arg3 (by decide)
theorem keep_arg3_3 (c : Dev nD) : W3 m ρ c (Proc.devRef .tc main_arg3) = W2 m ρ c (Proc.devRef .tc main_arg3) := by
  show StableHlo.after hostOps1 (W2 m ρ c) (Proc.devRef .tc main_arg3) = W2 m ρ c (Proc.devRef .tc main_arg3)
  after_results
theorem keep_arg3_2 (c : Dev nD) : W2 m ρ c (Proc.devRef .tc main_arg3) = W1 m ρ c (Proc.devRef .tc main_arg3) := W2_of_ne m ρ c main_arg3 (by decide)
theorem keep_arg3_1 (c : Dev nD) : W1 m ρ c (Proc.devRef .tc main_arg3) = W0 m ρ c (Proc.devRef .tc main_arg3) := by
  show StableHlo.after hostOps0 (W0 m ρ c) (Proc.devRef .tc main_arg3) = W0 m ρ c (Proc.devRef .tc main_arg3)
  after_results
theorem keep_arg5_4 (c : Dev nD) : W4 m ρ c (Proc.devRef .tc main_arg5) = W3 m ρ c (Proc.devRef .tc main_arg5) := W4_of_ne m ρ c main_arg5 (by decide)
theorem keep_arg5_3 (c : Dev nD) : W3 m ρ c (Proc.devRef .tc main_arg5) = W2 m ρ c (Proc.devRef .tc main_arg5) := by
  show StableHlo.after hostOps1 (W2 m ρ c) (Proc.devRef .tc main_arg5) = W2 m ρ c (Proc.devRef .tc main_arg5)
  after_results
theorem keep_arg5_2 (c : Dev nD) : W2 m ρ c (Proc.devRef .tc main_arg5) = W1 m ρ c (Proc.devRef .tc main_arg5) := W2_of_ne m ρ c main_arg5 (by decide)
theorem keep_arg5_1 (c : Dev nD) : W1 m ρ c (Proc.devRef .tc main_arg5) = W0 m ρ c (Proc.devRef .tc main_arg5) := by
  show StableHlo.after hostOps0 (W0 m ρ c) (Proc.devRef .tc main_arg5) = W0 m ρ c (Proc.devRef .tc main_arg5)
  after_results
theorem keep_arg2_5 (c : Dev nD) : W5 m ρ c (Proc.devRef .tc main_arg2) = W4 m ρ c (Proc.devRef .tc main_arg2) := by
  show StableHlo.after hostOps2 (W4 m ρ c) (Proc.devRef .tc main_arg2) = W4 m ρ c (Proc.devRef .tc main_arg2)
  after_results
theorem keep_arg2_4 (c : Dev nD) : W4 m ρ c (Proc.devRef .tc main_arg2) = W3 m ρ c (Proc.devRef .tc main_arg2) := W4_of_ne m ρ c main_arg2 (by decide)
theorem keep_arg2_3 (c : Dev nD) : W3 m ρ c (Proc.devRef .tc main_arg2) = W2 m ρ c (Proc.devRef .tc main_arg2) := by
  show StableHlo.after hostOps1 (W2 m ρ c) (Proc.devRef .tc main_arg2) = W2 m ρ c (Proc.devRef .tc main_arg2)
  after_results
theorem keep_arg2_2 (c : Dev nD) : W2 m ρ c (Proc.devRef .tc main_arg2) = W1 m ρ c (Proc.devRef .tc main_arg2) := W2_of_ne m ρ c main_arg2 (by decide)
theorem keep_arg2_1 (c : Dev nD) : W1 m ρ c (Proc.devRef .tc main_arg2) = W0 m ρ c (Proc.devRef .tc main_arg2) := by
  show StableHlo.after hostOps0 (W0 m ρ c) (Proc.devRef .tc main_arg2) = W0 m ρ c (Proc.devRef .tc main_arg2)
  after_results
theorem keep_arg4_5 (c : Dev nD) : W5 m ρ c (Proc.devRef .tc main_arg4) = W4 m ρ c (Proc.devRef .tc main_arg4) := by
  show StableHlo.after hostOps2 (W4 m ρ c) (Proc.devRef .tc main_arg4) = W4 m ρ c (Proc.devRef .tc main_arg4)
  after_results
theorem keep_arg4_4 (c : Dev nD) : W4 m ρ c (Proc.devRef .tc main_arg4) = W3 m ρ c (Proc.devRef .tc main_arg4) := W4_of_ne m ρ c main_arg4 (by decide)
theorem keep_arg4_3 (c : Dev nD) : W3 m ρ c (Proc.devRef .tc main_arg4) = W2 m ρ c (Proc.devRef .tc main_arg4) := by
  show StableHlo.after hostOps1 (W2 m ρ c) (Proc.devRef .tc main_arg4) = W2 m ρ c (Proc.devRef .tc main_arg4)
  after_results
theorem keep_arg4_2 (c : Dev nD) : W2 m ρ c (Proc.devRef .tc main_arg4) = W1 m ρ c (Proc.devRef .tc main_arg4) := W2_of_ne m ρ c main_arg4 (by decide)
theorem keep_arg4_1 (c : Dev nD) : W1 m ρ c (Proc.devRef .tc main_arg4) = W0 m ρ c (Proc.devRef .tc main_arg4) := by
  show StableHlo.after hostOps0 (W0 m ρ c) (Proc.devRef .tc main_arg4) = W0 m ρ c (Proc.devRef .tc main_arg4)
  after_results
theorem keep_v23_7 (c : Dev nD) : W7 m ρ c (Proc.devRef .tc main_v23) = W6 m ρ c (Proc.devRef .tc main_v23) := by
  show StableHlo.after hostOps3 (W6 m ρ c) (Proc.devRef .tc main_v23) = W6 m ρ c (Proc.devRef .tc main_v23)
  after_results
theorem keep_v23_6 (c : Dev nD) : W6 m ρ c (Proc.devRef .tc main_v23) = W5 m ρ c (Proc.devRef .tc main_v23) := W6_of_ne m ρ c main_v23 (by decide)
theorem keep_v23_5 (c : Dev nD) : W5 m ρ c (Proc.devRef .tc main_v23) = W4 m ρ c (Proc.devRef .tc main_v23) := by
  show StableHlo.after hostOps2 (W4 m ρ c) (Proc.devRef .tc main_v23) = W4 m ρ c (Proc.devRef .tc main_v23)
  after_results
theorem keep_v23_4 (c : Dev nD) : W4 m ρ c (Proc.devRef .tc main_v23) = W3 m ρ c (Proc.devRef .tc main_v23) := W4_of_ne m ρ c main_v23 (by decide)

/-! ## What each host stretch writes -/

/-- Before region 0: the tokens as a matrix. -/
theorem toks_1 (c : Dev nD) : W1 m ρ c (Proc.devRef .tc main_v0) = Cert.SoftMoe.toks (F := Ideal) (W0 m ρ c (Proc.devRef .tc main_arg0)) := by
  show StableHlo.after hostOps0 (W0 m ρ c) (Proc.devRef .tc main_v0) = _
  after_results
  rfl

/-- Between regions 0 and 1: the column softmax of the logits … -/
theorem dispatch_3 (c : Dev nD) : W3 m ρ c (Proc.devRef .tc main_v12) = Cert.SoftMoe.dispatch (F := Ideal) (W2 m ρ c (Proc.devRef .tc main_v1)) := by
  show StableHlo.after hostOps1 (W2 m ρ c) (Proc.devRef .tc main_v12) = _
  generalize W2 m ρ c = W
  after_results_simp
  rfl

/-- … and their row softmax. -/
theorem combine_3 (c : Dev nD) : W3 m ρ c (Proc.devRef .tc main_v23) = Cert.SoftMoe.combineWeights (F := Ideal) (W2 m ρ c (Proc.devRef .tc main_v1)) := by
  show StableHlo.after hostOps1 (W2 m ρ c) (Proc.devRef .tc main_v23) = _
  generalize W2 m ρ c = W
  after_results_simp
  rfl

/-- Between regions 1 and 2: the slot inputs regrouped by expert and slot, and the two bias arrays with a unit slot axis. -/
theorem slots_5 (c : Dev nD) : W5 m ρ c (Proc.devRef .tc main_v25) = Cert.SoftMoe.bySlot (F := Ideal) (W4 m ρ c (Proc.devRef .tc main_v24)) := by
  show StableHlo.after hostOps2 (W4 m ρ c) (Proc.devRef .tc main_v25) = _
  after_results
  rfl
theorem bias1_5 (c : Dev nD) : W5 m ρ c (Proc.devRef .tc main_v26) = shapeCast S32x1x4096 (W4 m ρ c (Proc.devRef .tc main_arg3)) shapeCasts_S32x4096_S32x1x4096 := by
  show StableHlo.after hostOps2 (W4 m ρ c) (Proc.devRef .tc main_v26) = _
  after_results
  rfl
theorem bias2_5 (c : Dev nD) : W5 m ρ c (Proc.devRef .tc main_v27) = shapeCast S32x1x1024 (W4 m ρ c (Proc.devRef .tc main_arg5)) shapeCasts_S32x1024_S32x1x1024 := by
  show StableHlo.after hostOps2 (W4 m ρ c) (Proc.devRef .tc main_v27) = _
  after_results
  rfl

/-- Between regions 2 and 3: the experts' outputs as 64 rows. -/
theorem rows_7 (c : Dev nD) : W7 m ρ c (Proc.devRef .tc main_v29) = Cert.SoftMoe.asRows (F := Ideal) (W6 m ρ c (Proc.devRef .tc main_v28)) := by
  show StableHlo.after hostOps3 (W6 m ρ c) (Proc.devRef .tc main_v29) = _
  after_results
  rfl

/-- After region 3: the mixture regrouped by batch. -/
theorem batch_9 (c : Dev nD) : W9 m ρ c (Proc.devRef .tc main_v31) = Cert.SoftMoe.byBatch (F := Ideal) (W8 m ρ c (Proc.devRef .tc main_v30)) := by
  show StableHlo.after hostOps4 (W8 m ρ c) (Proc.devRef .tc main_v31) = _
  after_results
  rfl

/-! ## The walk -/

/-- The result array at the last boundary is the layer of the launch contents of the arguments, the two bias arrays
    reshaped [32, n] → [32, 1, n] — given what each region leaves in its output array as a function of the contents
    it is entered with. -/
theorem result_eq
    (h0 : ∀ (V : (c : Dev nD) → (b : Ref sig .tc) → Buf (Elt Ideal) ((c : Thread nD τ).loc b)) (c : Dev nD),
      (dat0 (F := Ideal) V c).arrAt 2 cfg0.N = Cert.SoftMoe.logits (F := Ideal) (V c main_v0) (V c main_arg1))
    (h1 : ∀ (V : (c : Dev nD) → (b : Ref sig .tc) → Buf (Elt Ideal) ((c : Thread nD τ).loc b)) (c : Dev nD),
      (dat1 (F := Ideal) V c).arrAt 2 cfg1.N = Cert.SoftMoe.slotInputs (F := Ideal) (V c main_v12) (V c main_v0))
    (h2 : ∀ (V : (c : Dev nD) → (b : Ref sig .tc) → Buf (Elt Ideal) ((c : Thread nD τ).loc b)) (c : Dev nD),
      (dat2 (F := Ideal) V c).arrAt 5 cfg2.N
        = Cert.SoftMoe.experts (F := Ideal) (V c main_v25) (V c main_arg2) (V c main_v26) (V c main_arg4) (V c main_v27))
    (h3 : ∀ (V : (c : Dev nD) → (b : Ref sig .tc) → Buf (Elt Ideal) ((c : Thread nD τ).loc b)) (c : Dev nD),
      (dat3 (F := Ideal) V c).arrAt 2 cfg3.N = Cert.SoftMoe.mixture (F := Ideal) (V c main_v23) (V c main_v29))
    (c : Dev nD) :
    W9 m ρ c (Proc.devRef .tc main_v31)
      = Cert.SoftMoe.layerOf (F := Ideal) (m ((c : Thread nD τ).loc main_arg0)) (m ((c : Thread nD τ).loc main_arg1)) (m ((c : Thread nD τ).loc main_arg2))
          (shapeCast S32x1x4096 (m ((c : Thread nD τ).loc main_arg3)) shapeCasts_S32x4096_S32x1x4096) (m ((c : Thread nD τ).loc main_arg4))
          (shapeCast S32x1x1024 (m ((c : Thread nD τ).loc main_arg5)) shapeCasts_S32x1024_S32x1x1024) := by
  -- the four regions' output arrays
  have e1 : W2 m ρ c (Proc.devRef .tc main_v1) = Cert.SoftMoe.logits (F := Ideal) (W1 m ρ c (Proc.devRef .tc main_v0)) (W1 m ρ c (Proc.devRef .tc main_arg1)) :=
    (W2_arr m ρ c 2).trans (h0 (V1 m ρ) c)
  have e24 : W4 m ρ c (Proc.devRef .tc main_v24) = Cert.SoftMoe.slotInputs (F := Ideal) (W3 m ρ c (Proc.devRef .tc main_v12)) (W3 m ρ c (Proc.devRef .tc main_v0)) :=
    (W4_arr m ρ c 2).trans (h1 (V3 m ρ) c)
  have e28 : W6 m ρ c (Proc.devRef .tc main_v28) = Cert.SoftMoe.experts (F := Ideal) (W5 m ρ c (Proc.devRef .tc main_v25)) (W5 m ρ c (Proc.devRef .tc main_arg2))
      (W5 m ρ c (Proc.devRef .tc main_v26)) (W5 m ρ c (Proc.devRef .tc main_arg4)) (W5 m ρ c (Proc.devRef .tc main_v27)) :=
    (W6_arr m ρ c 5).trans (h2 (V5 m ρ) c)
  have e30 : W8 m ρ c (Proc.devRef .tc main_v30) = Cert.SoftMoe.mixture (F := Ideal) (W7 m ρ c (Proc.devRef .tc main_v23)) (W7 m ρ c (Proc.devRef .tc main_v29)) :=
    (W8_arr m ρ c 2).trans (h3 (V7 m ρ) c)
  have a0 : W0 m ρ c (Proc.devRef .tc main_arg0) = (m ((c : Thread nD τ).loc main_arg0)) := rfl
  have a1 : W0 m ρ c (Proc.devRef .tc main_arg1) = (m ((c : Thread nD τ).loc main_arg1)) := rfl
  have a2 : W0 m ρ c (Proc.devRef .tc main_arg2) = (m ((c : Thread nD τ).loc main_arg2)) := rfl
  have a3 : W0 m ρ c (Proc.devRef .tc main_arg3) = (m ((c : Thread nD τ).loc main_arg3)) := rfl
  have a4 : W0 m ρ c (Proc.devRef .tc main_arg4) = (m ((c : Thread nD τ).loc main_arg4)) := rfl
  have a5 : W0 m ρ c (Proc.devRef .tc main_arg5) = (m ((c : Thread nD τ).loc main_arg5)) := rfl
  unfold Cert.SoftMoe.layerOf
  rw [batch_9, e30, rows_7, e28, slots_5, e24, dispatch_3, bias1_5, bias2_5,
    keep_v23_7 m ρ c, keep_v23_6 m ρ c, keep_v23_5 m ρ c, keep_v23_4 m ρ c, combine_3, e1, toks_1,
    keep_v0_3 m ρ c, keep_v0_2 m ρ c, toks_1,
    keep_arg1_1 m ρ c,
    keep_arg2_5 m ρ c, keep_arg2_4 m ρ c, keep_arg2_3 m ρ c, keep_arg2_2 m ρ c, keep_arg2_1 m ρ c,
    keep_arg3_4 m ρ c, keep_arg3_3 m ρ c, keep_arg3_2 m ρ c, keep_arg3_1 m ρ c,
    keep_arg4_5 m ρ c, keep_arg4_4 m ρ c, keep_arg4_3 m ρ c, keep_arg4_2 m ρ c, keep_arg4_1 m ρ c,
    keep_arg5_4 m ρ c, keep_arg5_3 m ρ c, keep_arg5_2 m ρ c, keep_arg5_1 m ρ c,
    a0, a1, a2, a3, a4, a5]

end Cert.KernelIdeal.Walk

end
-- ==== Proof.SpecAt.lean ====
/-
  The layer's operations read at an entry, on the extended reals: each product is a finite sum of products over its
  contracted axis, the bias is added where its expert and column say, and gelu acts entry by entry.
-/
import proofs.«138696_j23819888624292_1_alg».proof.Proof.Spec
import proofs.«138696_j23819888624292_1_alg».proof.Proof.Gen.ReferenceIdeal.Read

noncomputable section

namespace Cert.SoftMoe

open Cert.ReferenceIdeal Cert.ReferenceIdeal.Gen Idealize.ShloMosaic Idealize.ShloMosaic.TcCoe Idealize.ShloMosaic.ValueIdx

/-- Entry (r, n) of the logits: the inner product of token r with column n of the router matrix. -/
theorem logits_apply (t : Arr Ideal S8192x1024) (w : Arr Ideal S1024x64) (r : Fin 8192) (n : Fin 64) :
    logits (F := Ideal) t w (ix2 r n) = ∑ k : Fin 1024, t (ix2 r k) * w (ix2 k n) := by
  unfold logits
  simp only [Host.dotGeneral]
  rw [Ideal.dotGeneral_apply, ← Equiv.sum_comp (ValueIdx.contrEquiv1 dot_S8192x1024_S1024x64_S8192x64_1_0_0_1_n_n 1024 rfl rfl).symm]
  refine Finset.sum_congr rfl fun k _ => ?_
  have hk := ValueIdx.contrEquiv1_symm_val dot_S8192x1024_S1024x64_S8192x64_1_0_0_1_n_n 1024 rfl rfl k
  have el : dot_S8192x1024_S1024x64_S8192x64_1_0_0_1_n_n.lhsIdx (ix2 r n) ((ValueIdx.contrEquiv1 dot_S8192x1024_S1024x64_S8192x64_1_0_0_1_n_n 1024 rfl rfl).symm k) = ix2 r k := funext fun a => Fin.ext (by
    match a with
    | ⟨0, _⟩ => exact Cert.ReferenceIdeal.Read.lhs_main_v1_0 _ _
    | ⟨1, _⟩ => exact (Cert.ReferenceIdeal.Read.lhs_main_v1_1 _ _).trans hk)
  have er : dot_S8192x1024_S1024x64_S8192x64_1_0_0_1_n_n.rhsIdx (ix2 r n) ((ValueIdx.contrEquiv1 dot_S8192x1024_S1024x64_S8192x64_1_0_0_1_n_n 1024 rfl rfl).symm k) = ix2 k n := funext fun a => Fin.ext (by
    match a with
    | ⟨0, _⟩ => exact (Cert.ReferenceIdeal.Read.rhs_main_v1_0 _ _).trans hk
    | ⟨1, _⟩ => exact Cert.ReferenceIdeal.Read.rhs_main_v1_1 _ _)
  rw [el, er]

/-- Entry (n, d) of the slot inputs: the sum over all 8192 tokens r of rp (r, n) · t (r, d). -/
theorem slotInputs_apply (rp : Arr Ideal S8192x64) (t : Arr Ideal S8192x1024) (n : Fin 64) (d : Fin 1024) :
    slotInputs (F := Ideal) rp t (ix2 n d) = ∑ r : Fin 8192, rp (ix2 r n) * t (ix2 r d) := by
  unfold slotInputs
  have ht : ∀ r : Fin 8192, transpose S64x8192 [1, 0] rp transposes_S8192x64_S64x8192_1_0 (ix2 n r) = rp (ix2 r n) := fun r =>
    transpose_apply [1, 0] rp transposes_S8192x64_S64x8192_1_0 (ix2 n r) (ix2 r n) (fun b => match b with
      | ⟨0, _⟩ => rfl
      | ⟨1, _⟩ => rfl)
  generalize transpose S64x8192 [1, 0] rp transposes_S8192x64_S64x8192_1_0 = rpT at ht
  simp only [← ht]
  simp only [Host.dotGeneral]
  rw [Ideal.dotGeneral_apply, ← Equiv.sum_comp (ValueIdx.contrEquiv1 dot_S64x8192_S8192x1024_S64x1024_1_0_0_1_n_n 8192 rfl rfl).symm]
  refine Finset.sum_congr rfl fun k _ => ?_
  have hk := ValueIdx.contrEquiv1_symm_val dot_S64x8192_S8192x1024_S64x1024_1_0_0_1_n_n 8192 rfl rfl k
  have el : dot_S64x8192_S8192x1024_S64x1024_1_0_0_1_n_n.lhsIdx (ix2 n d) ((ValueIdx.contrEquiv1 dot_S64x8192_S8192x1024_S64x1024_1_0_0_1_n_n 8192 rfl rfl).symm k) = ix2 n k := funext fun a => Fin.ext (by
    match a with
    | ⟨0, _⟩ => exact Cert.ReferenceIdeal.Read.lhs_main_v25_0 _ _
    | ⟨1, _⟩ => exact (Cert.ReferenceIdeal.Read.lhs_main_v25_1 _ _).trans hk)
  have er : dot_S64x8192_S8192x1024_S64x1024_1_0_0_1_n_n.rhsIdx (ix2 n d) ((ValueIdx.contrEquiv1 dot_S64x8192_S8192x1024_S64x1024_1_0_0_1_n_n 8192 rfl rfl).symm k) = ix2 k d := funext fun a => Fin.ext (by
    match a with
    | ⟨0, _⟩ => exact (Cert.ReferenceIdeal.Read.rhs_main_v25_0 _ _).trans hk
    | ⟨1, _⟩ => exact Cert.ReferenceIdeal.Read.rhs_main_v25_1 _ _)
  rw [el, er]

/-- Entry (e, p, h) of the hidden pre-activations. -/
theorem hidden_apply (xs : Arr Ideal S32x2x1024) (w1 : Arr Ideal S32x1024x4096) (b1r : Arr Ideal S32x1x4096)
    (e : Fin 32) (p : Fin 2) (h : Fin 4096) :
    hidden (F := Ideal) xs w1 b1r (ix3 e p h) = (∑ k : Fin 1024, xs (ix3 e p k) * w1 (ix3 e k h)) + b1r (ix3 e 0 h) := by
  unfold hidden
  rw [addf_apply]
  congr 1
  · simp only [Host.dotGeneral]
    rw [Ideal.dotGeneral_apply, ← Equiv.sum_comp (ValueIdx.contrEquiv1 dot_S32x2x1024_S32x1024x4096_S32x2x4096_2_1_1_2_0_0 1024 rfl rfl).symm]
    refine Finset.sum_congr rfl fun k _ => ?_
    have hk := ValueIdx.contrEquiv1_symm_val dot_S32x2x1024_S32x1024x4096_S32x2x4096_2_1_1_2_0_0 1024 rfl rfl k
    have el : dot_S32x2x1024_S32x1024x4096_S32x2x4096_2_1_1_2_0_0.lhsIdx (ix3 e p h) ((ValueIdx.contrEquiv1 dot_S32x2x1024_S32x1024x4096_S32x2x4096_2_1_1_2_0_0 1024 rfl rfl).symm k) = ix3 e p k := funext fun a => Fin.ext (by
      match a with
      | ⟨0, _⟩ => exact Cert.ReferenceIdeal.Read.lhs_main_v27_0 _ _
      | ⟨1, _⟩ => exact Cert.ReferenceIdeal.Read.lhs_main_v27_1 _ _
      | ⟨2, _⟩ => exact (Cert.ReferenceIdeal.Read.lhs_main_v27_2 _ _).trans hk)
    have er : dot_S32x2x1024_S32x1024x4096_S32x2x4096_2_1_1_2_0_0.rhsIdx (ix3 e p h) ((ValueIdx.contrEquiv1 dot_S32x2x1024_S32x1024x4096_S32x2x4096_2_1_1_2_0_0 1024 rfl rfl).symm k) = ix3 e k h := funext fun a => Fin.ext (by
      match a with
      | ⟨0, _⟩ => exact Cert.ReferenceIdeal.Read.rhs_main_v27_0 _ _
      | ⟨1, _⟩ => exact (Cert.ReferenceIdeal.Read.rhs_main_v27_1 _ _).trans hk
      | ⟨2, _⟩ => exact Cert.ReferenceIdeal.Read.rhs_main_v27_2 _ _)
    rw [el, er]
  · exact broadcastInDim_apply (![0, 1, 2] : Fin 3 → Fin 3) bcast_S32x1x4096_S32x2x4096_0_1_2 b1r (ix3 e p h) (ix3 e 0 h) (fun a => match a with
      | ⟨0, _⟩ => rfl
      | ⟨1, _⟩ => rfl
      | ⟨2, _⟩ => rfl)

/-- gelu in its tanh form on one extended real. -/
def geluAt (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * ((x * x) * x)))))

/-- A scalar constant spread over [32, 2, 4096] reads the extended real its word encodes everywhere. -/
theorem splat_apply (w : BitVec 32) (i : S32x2x4096.Idx) :
    broadcastInDim S32x2x4096 ![] bcast_S_S32x2x4096 (constant (F := Ideal) S_ .f32 w) i = Ideal.ofBits .f32 w :=
  (broadcastInDim_apply (![] : Fin 0 → Fin 3) bcast_S_S32x2x4096 (constant (F := Ideal) S_ .f32 w) i (fun a => a.elim0) (fun a => a.elim0)).trans rfl

/-- gelu acts entry by entry. -/
theorem gelu_apply (h : Arr Ideal S32x2x4096) (i : S32x2x4096.Idx) : gelu (F := Ideal) h i = geluAt (h i) := by
  unfold gelu geluAt
  simp only [mulf_apply, addf_apply, splat_apply]
  rfl

/-- Entry (e, p, d) of the experts' outputs. -/
theorem experts_apply (xs : Arr Ideal S32x2x1024) (w1 : Arr Ideal S32x1024x4096) (b1r : Arr Ideal S32x1x4096)
    (w2 : Arr Ideal S32x4096x1024) (b2r : Arr Ideal S32x1x1024) (e : Fin 32) (p : Fin 2) (d : Fin 1024) :
    experts (F := Ideal) xs w1 b1r w2 b2r (ix3 e p d)
      = (∑ h : Fin 4096, geluAt (hidden (F := Ideal) xs w1 b1r (ix3 e p h)) * w2 (ix3 e h d)) + b2r (ix3 e 0 d) := by
  unfold experts
  rw [addf_apply]
  congr 1
  · have hg : ∀ h : Fin 4096, gelu (F := Ideal) (hidden (F := Ideal) xs w1 b1r) (ix3 e p h) = geluAt (hidden (F := Ideal) xs w1 b1r (ix3 e p h)) :=
      fun h => gelu_apply _ _
    generalize gelu (F := Ideal) (hidden (F := Ideal) xs w1 b1r) = g at hg
    simp only [← hg]
    simp only [Host.dotGeneral]
    rw [Ideal.dotGeneral_apply, ← Equiv.sum_comp (ValueIdx.contrEquiv1 dot_S32x2x4096_S32x4096x1024_S32x2x1024_2_1_1_2_0_0 4096 rfl rfl).symm]
    refine Finset.sum_congr rfl fun k _ => ?_
    have hk := ValueIdx.contrEquiv1_symm_val dot_S32x2x4096_S32x4096x1024_S32x2x1024_2_1_1_2_0_0 4096 rfl rfl k
    have el : dot_S32x2x4096_S32x4096x1024_S32x2x1024_2_1_1_2_0_0.lhsIdx (ix3 e p d) ((ValueIdx.contrEquiv1 dot_S32x2x4096_S32x4096x1024_S32x2x1024_2_1_1_2_0_0 4096 rfl rfl).symm k) = ix3 e p k := funext fun a => Fin.ext (by
      match a with
      | ⟨0, _⟩ => exact Cert.ReferenceIdeal.Read.lhs_main_v44_0 _ _
      | ⟨1, _⟩ => exact Cert.ReferenceIdeal.Read.lhs_main_v44_1 _ _
      | ⟨2, _⟩ => exact (Cert.ReferenceIdeal.Read.lhs_main_v44_2 _ _).trans hk)
    have er : dot_S32x2x4096_S32x4096x1024_S32x2x1024_2_1_1_2_0_0.rhsIdx (ix3 e p d) ((ValueIdx.contrEquiv1 dot_S32x2x4096_S32x4096x1024_S32x2x1024_2_1_1_2_0_0 4096 rfl rfl).symm k) = ix3 e k d := funext fun a => Fin.ext (by
      match a with
      | ⟨0, _⟩ => exact Cert.ReferenceIdeal.Read.rhs_main_v44_0 _ _
      | ⟨1, _⟩ => exact (Cert.ReferenceIdeal.Read.rhs_main_v44_1 _ _).trans hk
      | ⟨2, _⟩ => exact Cert.ReferenceIdeal.Read.rhs_main_v44_2 _ _)
    rw [el, er]
  · exact broadcastInDim_apply (![0, 1, 2] : Fin 3 → Fin 3) bcast_S32x1x1024_S32x2x1024_0_1_2 b2r (ix3 e p d) (ix3 e 0 d) (fun a => match a with
      | ⟨0, _⟩ => rfl
      | ⟨1, _⟩ => rfl
      | ⟨2, _⟩ => rfl)

/-- Entry (r, d) of the mixture: Σ_n cp (r, n) · yh (n, d). -/
theorem mixture_apply (cp : Arr Ideal S8192x64) (yh : Arr Ideal S64x1024) (r : Fin 8192) (d : Fin 1024) :
    mixture (F := Ideal) cp yh (ix2 r d) = ∑ n : Fin 64, cp (ix2 r n) * yh (ix2 n d) := by
  unfold mixture
  simp only [Host.dotGeneral]
  rw [Ideal.dotGeneral_apply, ← Equiv.sum_comp (ValueIdx.contrEquiv1 dot_S8192x64_S64x1024_S8192x1024_1_0_0_1_n_n 64 rfl rfl).symm]
  refine Finset.sum_congr rfl fun k _ => ?_
  have hk := ValueIdx.contrEquiv1_symm_val dot_S8192x64_S64x1024_S8192x1024_1_0_0_1_n_n 64 rfl rfl k
  have el : dot_S8192x64_S64x1024_S8192x1024_1_0_0_1_n_n.lhsIdx (ix2 r d) ((ValueIdx.contrEquiv1 dot_S8192x64_S64x1024_S8192x1024_1_0_0_1_n_n 64 rfl rfl).symm k) = ix2 r k := funext fun a => Fin.ext (by
    match a with
    | ⟨0, _⟩ => exact Cert.ReferenceIdeal.Read.lhs_main_v49_0 _ _
    | ⟨1, _⟩ => exact (Cert.ReferenceIdeal.Read.lhs_main_v49_1 _ _).trans hk)
  have er : dot_S8192x64_S64x1024_S8192x1024_1_0_0_1_n_n.rhsIdx (ix2 r d) ((ValueIdx.contrEquiv1 dot_S8192x64_S64x1024_S8192x1024_1_0_0_1_n_n 64 rfl rfl).symm k) = ix2 k d := funext fun a => Fin.ext (by
    match a with
    | ⟨0, _⟩ => exact (Cert.ReferenceIdeal.Read.rhs_main_v49_0 _ _).trans hk
    | ⟨1, _⟩ => exact Cert.ReferenceIdeal.Read.rhs_main_v49_1 _ _)
  rw [el, er]

end Cert.SoftMoe

end
-- ==== Proof.KernelDots.lean ====
/-
  The five matrix products of the kernel's bodies, each read at an entry (p, q) of its result as a plain finite sum of
  products over the contracted axis. On the extended reals a product into a zero accumulator has no rounding and no
  order of accumulation left in it, so it is that sum.
-/
import proofs.«138696_j23819888624292_1_alg».proof.Proof.Gen.KernelIdeal
import Idealize.ShloMosaic.Lib.ValueIdx
import Idealize.ShloMosaic.PureOps.Ideal.Laws

noncomputable section

namespace Cert.KernelIdeal.Dots

open Cert.KernelIdeal Cert.KernelIdeal.Gen Idealize.ShloMosaic Idealize.ShloMosaic.TcCoe Idealize.ShloMosaic.ValueIdx

theorem logitsTile_lhs_free (i : S1024x64.Idx) (q : dot_S1024x1024_S1024x64_S1024x64_1_0_0_1_n_n.contr.Idx) : (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem logitsTile_lhs_contr (i : S1024x64.Idx) (q : dot_S1024x1024_S1024x64_S1024x64_1_0_0_1_n_n.contr.Idx) : (dot_S1024x1024_S1024x64_S1024x64_1_0_0_1_n_n.lhsIdx i q 1).val = (q ⟨0, by decide⟩).val :=
  dot_S1024x1024_S1024x64_S1024x64_1_0_0_1_n_n.lhsIdx_val_of_single rfl i q
theorem logitsTile_rhs_free (i : S1024x64.Idx) (q : dot_S1024x1024_S1024x64_S1024x64_1_0_0_1_n_n.contr.Idx) : (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl
theorem logitsTile_rhs_contr (i : S1024x64.Idx) (q : dot_S1024x1024_S1024x64_S1024x64_1_0_0_1_n_n.contr.Idx) : (dot_S1024x1024_S1024x64_S1024x64_1_0_0_1_n_n.rhsIdx i q 0).val = (q ⟨0, by decide⟩).val :=
  dot_S1024x1024_S1024x64_S1024x64_1_0_0_1_n_n.rhsIdx_val_of_single rfl i q

/-- A 1024 × 1024 tile of tokens times the 1024 × 64 router matrix: entry (p, q) is Σ_k l (p, k) · r (k, q). -/
theorem logitsTile_apply {φ₁ φ₂ : FTy} (l : FVec Ideal S1024x1024 φ₁) (r : FVec Ideal S1024x64 φ₂) (p : Fin 1024) (q : Fin 64) :
    matmul dot_S1024x1024_S1024x64_S1024x64_1_0_0_1_n_n none l r (constant (F := Ideal) S1024x64 .f32 0x00000000#32) (ix2 p q)
      = ∑ k : Fin 1024, l (ix2 p k) * r (ix2 k q) := by
  simp only [matmul]
  rw [Ideal.matmul_constant_zero_apply, ← Equiv.sum_comp (ValueIdx.contrEquiv1 dot_S1024x1024_S1024x64_S1024x64_1_0_0_1_n_n 1024 rfl rfl).symm]
  refine Finset.sum_congr rfl fun k _ => ?_
  have hk := ValueIdx.contrEquiv1_symm_val dot_S1024x1024_S1024x64_S1024x64_1_0_0_1_n_n 1024 rfl rfl k
  have el : dot_S1024x1024_S1024x64_S1024x64_1_0_0_1_n_n.lhsIdx (ix2 p q) ((ValueIdx.contrEquiv1 dot_S1024x1024_S1024x64_S1024x64_1_0_0_1_n_n 1024 rfl rfl).symm k) = ix2 p k := funext fun a => Fin.ext (by
    match a with
    | ⟨0, _⟩ => exact logitsTile_lhs_free _ _
    | ⟨1, _⟩ => exact (logitsTile_lhs_contr _ _).trans hk)
  have er : dot_S1024x1024_S1024x64_S1024x64_1_0_0_1_n_n.rhsIdx (ix2 p q) ((ValueIdx.contrEquiv1 dot_S1024x1024_S1024x64_S1024x64_1_0_0_1_n_n 1024 rfl rfl).symm k) = ix2 k q := funext fun a => Fin.ext (by
    match a with
    | ⟨1, _⟩ => exact logitsTile_rhs_free _ _
    | ⟨0, _⟩ => exact (logitsTile_rhs_contr _ _).trans hk)
  rw [el, er]

theorem slotTile_lhs_free (i : S64x1024.Idx) (q : dot_S1024x64_S1024x1024_S64x1024_0_0_1_1_n_n.contr.Idx) : (dot_S1024x64_S1024x1024_S64x1024_0_0_1_1_n_n.lhsIdx i q 1).val = (i 0).val := by
  unfold DotDims.lhsIdx
  rw [dif_neg (show ¬(1 : Fin S1024x64.rank) ∈ dot_S1024x64_S1024x1024_S64x1024_0_0_1_1_n_n.lhsBatch by decide), dif_pos (show (1 : Fin S1024x64.rank) ∈ dot_S1024x64_S1024x1024_S64x1024_0_0_1_1_n_n.lhsNonContracting by decide)]
  rfl
theorem slotTile_lhs_contr (i : S64x1024.Idx) (q : dot_S1024x64_S1024x1024_S64x1024_0_0_1_1_n_n.contr.Idx) : (dot_S1024x64_S1024x1024_S64x1024_0_0_1_1_n_n.lhsIdx i q 0).val = (q ⟨0, by decide⟩).val :=
  dot_S1024x64_S1024x1024_S64x1024_0_0_1_1_n_n.lhsIdx_val_of_single rfl i q
theorem slotTile_rhs_free (i : S64x1024.Idx) (q : dot_S1024x64_S1024x1024_S64x1024_0_0_1_1_n_n.contr.Idx) : (dot_S1024x64_S1024x1024_S64x1024_0_0_1_1_n_n.rhsIdx i q 1).val = (i 1).val := by
  unfold DotDims.rhsIdx
  rw [dif_neg (show ¬(1 : Fin S1024x1024.rank) ∈ dot_S1024x64_S1024x1024_S64x1024_0_0_1_1_n_n.rhsBatch by decide), dif_pos (show (1 : Fin S1024x1024.rank) ∈ dot_S1024x64_S1024x1024_S64x1024_0_0_1_1_n_n.rhsNonContracting by decide)]
  rfl
theorem slotTile_rhs_contr (i : S64x1024.Idx) (q : dot_S1024x64_S1024x1024_S64x1024_0_0_1_1_n_n.contr.Idx) : (dot_S1024x64_S1024x1024_S64x1024_0_0_1_1_n_n.rhsIdx i q 0).val = (q ⟨0, by decide⟩).val :=
  dot_S1024x64_S1024x1024_S64x1024_0_0_1_1_n_n.rhsIdx_val_of_single rfl i q

/-- The transposed product of a 1024 × 64 tile with a 1024 × 1024 tile, contracted over their common rows: entry (p, q) is Σ_k l (k, p) · r (k, q). -/
theorem slotTile_apply {φ₁ φ₂ : FTy} (l : FVec Ideal S1024x64 φ₁) (r : FVec Ideal S1024x1024 φ₂) (p : Fin 64) (q : Fin 1024) :
    matmul dot_S1024x64_S1024x1024_S64x1024_0_0_1_1_n_n none l r (constant (F := Ideal) S64x1024 .f32 0x00000000#32) (ix2 p q)
      = ∑ k : Fin 1024, l (ix2 k p) * r (ix2 k q) := by
  simp only [matmul]
  rw [Ideal.matmul_constant_zero_apply, ← Equiv.sum_comp (ValueIdx.contrEquiv1 dot_S1024x64_S1024x1024_S64x1024_0_0_1_1_n_n 1024 rfl rfl).symm]
  refine Finset.sum_congr rfl fun k _ => ?_
  have hk := ValueIdx.contrEquiv1_symm_val dot_S1024x64_S1024x1024_S64x1024_0_0_1_1_n_n 1024 rfl rfl k
  have el : dot_S1024x64_S1024x1024_S64x1024_0_0_1_1_n_n.lhsIdx (ix2 p q) ((ValueIdx.contrEquiv1 dot_S1024x64_S1024x1024_S64x1024_0_0_1_1_n_n 1024 rfl rfl).symm k) = ix2 k p := funext fun a => Fin.ext (by
    match a with
    | ⟨1, _⟩ => exact slotTile_lhs_free _ _
    | ⟨0, _⟩ => exact (slotTile_lhs_contr _ _).trans hk)
  have er : dot_S1024x64_S1024x1024_S64x1024_0_0_1_1_n_n.rhsIdx (ix2 p q) ((ValueIdx.contrEquiv1 dot_S1024x64_S1024x1024_S64x1024_0_0_1_1_n_n 1024 rfl rfl).symm k) = ix2 k q := funext fun a => Fin.ext (by
    match a with
    | ⟨1, _⟩ => exact slotTile_rhs_free _ _
    | ⟨0, _⟩ => exact (slotTile_rhs_contr _ _).trans hk)
  rw [el, er]

theorem upTile_lhs_free (i : S2x2048.Idx) (q : dot_S2x1024_S1024x2048_S2x2048_1_0_0_1_n_n.contr.Idx) : (dot_S2x1024_S1024x2048_S2x2048_1_0_0_1_n_n.lhsIdx i q 0).val = (i 0).val := by
  unfold DotDims.lhsIdx
  rw [dif_neg (show ¬(0 : Fin S2x1024.rank) ∈ dot_S2x1024_S1024x2048_S2x2048_1_0_0_1_n_n.lhsBatch by decide), dif_pos (show (0 : Fin S2x1024.rank) ∈ dot_S2x1024_S1024x2048_S2x2048_1_0_0_1_n_n.lhsNonContracting by decide)]
  rfl
theorem upTile_lhs_contr (i : S2x2048.Idx) (q : dot_S2x1024_S1024x2048_S2x2048_1_0_0_1_n_n.contr.Idx) : (dot_S2x1024_S1024x2048_S2x2048_1_0_0_1_n_n.lhsIdx i q 1).val = (q ⟨0, by decide⟩).val :=
  dot_S2x1024_S1024x2048_S2x2048_1_0_0_1_n_n.lhsIdx_val_of_single rfl i q
theorem upTile_rhs_free (i : S2x2048.Idx) (q : dot_S2x1024_S1024x2048_S2x2048_1_0_0_1_n_n.contr.Idx) : (dot_S2x1024_S1024x2048_S2x2048_1_0_0_1_n_n.rhsIdx i q 1).val = (i 1).val := by
  unfold DotDims.rhsIdx
  rw [dif_neg (show ¬(1 : Fin S1024x2048.rank) ∈ dot_S2x1024_S1024x2048_S2x2048_1_0_0_1_n_n.rhsBatch by decide), dif_pos (show (1 : Fin S1024x2048.rank) ∈ dot_S2x1024_S1024x2048_S2x2048_1_0_0_1_n_n.rhsNonContracting by decide)]
  rfl
theorem upTile_rhs_contr (i : S2x2048.Idx) (q : dot_S2x1024_S1024x2048_S2x2048_1_0_0_1_n_n.contr.Idx) : (dot_S2x1024_S1024x2048_S2x2048_1_0_0_1_n_n.rhsIdx i q 0).val = (q ⟨0, by decide⟩).val :=
  dot_S2x1024_S1024x2048_S2x2048_1_0_0_1_n_n.rhsIdx_val_of_single rfl i q

/-- An expert's two slot inputs times a 1024 × 2048 band of its first weight matrix: entry (p, q) is Σ_k l (p, k) · r (k, q). -/
theorem upTile_apply {φ₁ φ₂ : FTy} (l : FVec Ideal S2x1024 φ₁) (r : FVec Ideal S1024x2048 φ₂) (p : Fin 2) (q : Fin 2048) :
    matmul dot_S2x1024_S1024x2048_S2x2048_1_0_0_1_n_n none l r (constant (F := Ideal) S2x2048 .f32 0x00000000#32) (ix2 p q)
      = ∑ k : Fin 1024, l (ix2 p k) * r (ix2 k q) := by
  simp only [matmul]
  rw [Ideal.matmul_constant_zero_apply, ← Equiv.sum_comp (ValueIdx.contrEquiv1 dot_S2x1024_S1024x2048_S2x2048_1_0_0_1_n_n 1024 rfl rfl).symm]
  refine Finset.sum_congr rfl fun k _ => ?_
  have hk := ValueIdx.contrEquiv1_symm_val dot_S2x1024_S1024x2048_S2x2048_1_0_0_1_n_n 1024 rfl rfl k
  have el : dot_S2x1024_S1024x2048_S2x2048_1_0_0_1_n_n.lhsIdx (ix2 p q) ((ValueIdx.contrEquiv1 dot_S2x1024_S1024x2048_S2x2048_1_0_0_1_n_n 1024 rfl rfl).symm k) = ix2 p k := funext fun a => Fin.ext (by
    match a with
    | ⟨0, _⟩ => exact upTile_lhs_free _ _
    | ⟨1, _⟩ => exact (upTile_lhs_contr _ _).trans hk)
  have er : dot_S2x1024_S1024x2048_S2x2048_1_0_0_1_n_n.rhsIdx (ix2 p q) ((ValueIdx.contrEquiv1 dot_S2x1024_S1024x2048_S2x2048_1_0_0_1_n_n 1024 rfl rfl).symm k) = ix2 k q := funext fun a => Fin.ext (by
    match a with
    | ⟨1, _⟩ => exact upTile_rhs_free _ _
    | ⟨0, _⟩ => exact (upTile_rhs_contr _ _).trans hk)
  rw [el, er]

theorem downTile_lhs_free (i : S2x1024.Idx) (q : dot_S2x2048_S2048x1024_S2x1024_1_0_0_1_n_n.contr.Idx) : (dot_S2x2048_S2048x1024_S2x1024_1_0_0_1_n_n.lhsIdx i q 0).val = (i 0).val := by
  unfold DotDims.lhsIdx
  rw [dif_neg (show ¬(0 : Fin S2x2048.rank) ∈ dot_S2x2048_S2048x1024_S2x1024_1_0_0_1_n_n.lhsBatch by decide), dif_pos (show (0 : Fin S2x2048.rank) ∈ dot_S2x2048_S2048x1024_S2x1024_1_0_0_1_n_n.lhsNonContracting by decide)]
  rfl
theorem downTile_lhs_contr (i : S2x1024.Idx) (q : dot_S2x2048_S2048x1024_S2x1024_1_0_0_1_n_n.contr.Idx) : (dot_S2x2048_S2048x1024_S2x1024_1_0_0_1_n_n.lhsIdx i q 1).val = (q ⟨0, by decide⟩).val :=
  dot_S2x2048_S2048x1024_S2x1024_1_0_0_1_n_n.lhsIdx_val_of_single rfl i q
theorem downTile_rhs_free (i : S2x1024.Idx) (q : dot_S2x2048_S2048x1024_S2x1024_1_0_0_1_n_n.contr.Idx) : (dot_S2x2048_S2048x1024_S2x1024_1_0_0_1_n_n.rhsIdx i q 1).val = (i 1).val := by
  unfold DotDims.rhsIdx
  rw [dif_neg (show ¬(1 : Fin S2048x1024.rank) ∈ dot_S2x2048_S2048x1024_S2x1024_1_0_0_1_n_n.rhsBatch by decide), dif_pos (show (1 : Fin S2048x1024.rank) ∈ dot_S2x2048_S2048x1024_S2x1024_1_0_0_1_n_n.rhsNonContracting by decide)]
  rfl
theorem downTile_rhs_contr (i : S2x1024.Idx) (q : dot_S2x2048_S2048x1024_S2x1024_1_0_0_1_n_n.contr.Idx) : (dot_S2x2048_S2048x1024_S2x1024_1_0_0_1_n_n.rhsIdx i q 0).val = (q ⟨0, by decide⟩).val :=
  dot_S2x2048_S2048x1024_S2x1024_1_0_0_1_n_n.rhsIdx_val_of_single rfl i q

/-- Two rows of 2048 activations times a 2048 × 1024 band of the second weight matrix: entry (p, q) is Σ_k l (p, k) · r (k, q). -/
theorem downTile_apply {φ₁ φ₂ : FTy} (l : FVec Ideal S2x2048 φ₁) (r : FVec Ideal S2048x1024 φ₂) (p : Fin 2) (q : Fin 1024) :
    matmul dot_S2x2048_S2048x1024_S2x1024_1_0_0_1_n_n none l r (constant (F := Ideal) S2x1024 .f32 0x00000000#32) (ix2 p q)
      = ∑ k : Fin 2048, l (ix2 p k) * r (ix2 k q) := by
  simp only [matmul]
  rw [Ideal.matmul_constant_zero_apply, ← Equiv.sum_comp (ValueIdx.contrEquiv1 dot_S2x2048_S2048x1024_S2x1024_1_0_0_1_n_n 2048 rfl rfl).symm]
  refine Finset.sum_congr rfl fun k _ => ?_
  have hk := ValueIdx.contrEquiv1_symm_val dot_S2x2048_S2048x1024_S2x1024_1_0_0_1_n_n 2048 rfl rfl k
  have el : dot_S2x2048_S2048x1024_S2x1024_1_0_0_1_n_n.lhsIdx (ix2 p q) ((ValueIdx.contrEquiv1 dot_S2x2048_S2048x1024_S2x1024_1_0_0_1_n_n 2048 rfl rfl).symm k) = ix2 p k := funext fun a => Fin.ext (by
    match a with
    | ⟨0, _⟩ => exact downTile_lhs_free _ _
    | ⟨1, _⟩ => exact (downTile_lhs_contr _ _).trans hk)
  have er : dot_S2x2048_S2048x1024_S2x1024_1_0_0_1_n_n.rhsIdx (ix2 p q) ((ValueIdx.contrEquiv1 dot_S2x2048_S2048x1024_S2x1024_1_0_0_1_n_n 2048 rfl rfl).symm k) = ix2 k q := funext fun a => Fin.ext (by
    match a with
    | ⟨1, _⟩ => exact downTile_rhs_free _ _
    | ⟨0, _⟩ => exact (downTile_rhs_contr _ _).trans hk)
  rw [el, er]

theorem mixTile_lhs_free (i : S1024x1024.Idx) (q : dot_S1024x64_S64x1024_S1024x1024_1_0_0_1_n_n.contr.Idx) : (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
theorem mixTile_lhs_contr (i : S1024x1024.Idx) (q : dot_S1024x64_S64x1024_S1024x1024_1_0_0_1_n_n.contr.Idx) : (dot_S1024x64_S64x1024_S1024x1024_1_0_0_1_n_n.lhsIdx i q 1).val = (q ⟨0, by decide⟩).val :=
  dot_S1024x64_S64x1024_S1024x1024_1_0_0_1_n_n.lhsIdx_val_of_single rfl i q
theorem mixTile_rhs_free (i : S1024x1024.Idx) (q : dot_S1024x64_S64x1024_S1024x1024_1_0_0_1_n_n.contr.Idx) : (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl
theorem mixTile_rhs_contr (i : S1024x1024.Idx) (q : dot_S1024x64_S64x1024_S1024x1024_1_0_0_1_n_n.contr.Idx) : (dot_S1024x64_S64x1024_S1024x1024_1_0_0_1_n_n.rhsIdx i q 0).val = (q ⟨0, by decide⟩).val :=
  dot_S1024x64_S64x1024_S1024x1024_1_0_0_1_n_n.rhsIdx_val_of_single rfl i q

/-- A 1024 × 64 tile of combine weights times the 64 × 1024 matrix of expert outputs: entry (p, q) is Σ_k l (p, k) · r (k, q). -/
theorem mixTile_apply {φ₁ φ₂ : FTy} (l : FVec Ideal S1024x64 φ₁) (r : FVec Ideal S64x1024 φ₂) (p : Fin 1024) (q : Fin 1024) :
    matmul dot_S1024x64_S64x1024_S1024x1024_1_0_0_1_n_n none l r (constant (F := Ideal) S1024x1024 .f32 0x00000000#32) (ix2 p q)
      = ∑ k : Fin 64, l (ix2 p k) * r (ix2 k q) := by
  simp only [matmul]
  rw [Ideal.matmul_constant_zero_apply, ← Equiv.sum_comp (ValueIdx.contrEquiv1 dot_S1024x64_S64x1024_S1024x1024_1_0_0_1_n_n 64 rfl rfl).symm]
  refine Finset.sum_congr rfl fun k _ => ?_
  have hk := ValueIdx.contrEquiv1_symm_val dot_S1024x64_S64x1024_S1024x1024_1_0_0_1_n_n 64 rfl rfl k
  have el : dot_S1024x64_S64x1024_S1024x1024_1_0_0_1_n_n.lhsIdx (ix2 p q) ((ValueIdx.contrEquiv1 dot_S1024x64_S64x1024_S1024x1024_1_0_0_1_n_n 64 rfl rfl).symm k) = ix2 p k := funext fun a => Fin.ext (by
    match a with
    | ⟨0, _⟩ => exact mixTile_lhs_free _ _
    | ⟨1, _⟩ => exact (mixTile_lhs_contr _ _).trans hk)
  have er : dot_S1024x64_S64x1024_S1024x1024_1_0_0_1_n_n.rhsIdx (ix2 p q) ((ValueIdx.contrEquiv1 dot_S1024x64_S64x1024_S1024x1024_1_0_0_1_n_n 64 rfl rfl).symm k) = ix2 k q := funext fun a => Fin.ext (by
    match a with
    | ⟨1, _⟩ => exact mixTile_rhs_free _ _
    | ⟨0, _⟩ => exact (mixTile_rhs_contr _ _).trans hk)
  rw [el, er]

end Cert.KernelIdeal.Dots

end
-- ==== Proof.Region0.lean ====
/-
  Region 0: the logits. The 8192 tokens are cut into eight blocks of 1024 rows; grid point t multiplies its block by the
  whole 1024 × 64 router matrix and writes back rows 1024·t … 1024·t + 1023 of the result. Row r of the result is
  therefore the product of token r with the router matrix, entry by entry a sum of 1024 products: the array the
  region leaves is the logits of the layer.
-/
import proofs.«138696_j23819888624292_1_alg».proof.Proof.SpecAt
import proofs.«138696_j23819888624292_1_alg».proof.Proof.KernelDots
import proofs.«138696_j23819888624292_1_alg».proof.Proof.Gen.KernelIdeal.Frame
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's one stored value at entry (p, q): the inner product of row p of the token block with column q of the router matrix. -/
theorem pay_apply (x0 : Vec Ideal S1024x1024 .f32) (x1 : Vec Ideal S1024x64 .f32) (p : Fin 1024) (q : Fin 64) :
    k0_pay1 x0 x1 (ix2 p q) = ∑ k : Fin 1024, x0 (ix2 p k) * x1 (ix2 k q) := by
  unfold k0_pay1
  simp only [shapeCast_self]
  exact Dots.logitsTile_apply _ _ p q

/-- The printed index maps over the eight grid points: the row-tiled windows sit at block (t, 0), the shared
    matrix at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of point t's block of the row-tiled operand is row 1024·t + p of its array. -/
theorem rows_read (c : Dev nD) (t : Fin cfg0.N) (p : Fin 1024) (k : Fin 1024) (r : Fin 8192) (hr : r.val = t.val * 1024 + p.val) :
    iblk0 V c 0 t (ix2 p k) = V c main_v0 (ix2 r k) := by
  obtain ⟨e0, e1, -, -, -, -⟩ := idx_facts t
  show V c main_v0 (((cfg0.win 0).blk t).view.emb (ix2 p k)) = V c main_v0 (ix2 r k)
  refine congrArg (V c main_v0) (funext fun a => Fin.ext ?_)
  match a with
  | ⟨0, _⟩ => show win0_0.index t (0 : Fin 2) * 1024 + 1 * p.val = r.val; omega
  | ⟨1, _⟩ => show win0_0.index t (1 : Fin 2) * 1024 + 1 * k.val = k.val; omega

/-- Every point's block of the shared matrix is the whole matrix. -/
theorem whole_read (c : Dev nD) (t : Fin cfg0.N) (k : Fin 1024) (q : Fin 64) :
    iblk0 V c 1 t (ix2 k q) = V c main_arg1 (ix2 k q) := by
  obtain ⟨-, -, e2, e3, -, -⟩ := idx_facts t
  show V c main_arg1 (((cfg0.win 1).blk t).view.emb (ix2 k q)) = V c main_arg1 (ix2 k q)
  refine congrArg (V c main_arg1) (funext fun a => Fin.ext ?_)
  match a with
  | ⟨0, _⟩ => show win0_1.index t (0 : Fin 2) * 1024 + 1 * k.val = k.val; omega
  | ⟨1, _⟩ => show win0_1.index t (1 : Fin 2) * 64 + 1 * q.val = q.val; omega

/-- What point t writes back is block t — rows 1024·t … 1024·t + 1023 — of the logits of the tokens and the router matrix. -/
theorem flushed_eq (c : Dev nD) (t : Fin cfg0.N) :
    (dat0 V c).flushed 2 t = ((cfg0.win 2).blk t).view.read (Elt Ideal) (Cert.SoftMoe.logits (F := Ideal) (V c main_v0) (V c main_arg1)) := by
  show (cfg0.win 2).cut (grid0.coords t) ((dat0 V c).after 2 t) = _
  rw [after0_2]
  unfold out0_2
  rw [View.canon_unit_zero hz]
  simp only [View.ld_unit_zero (S := S1024x1024) hz, View.ld_unit_zero (S := S1024x64) hz]
  obtain ⟨-, -, -, -, e4, e5⟩ := idx_facts t
  have hN : grid0.N = 8 := N_0
  have ht : t.val < 8 := by have h : t.val < grid0.N := t.isLt; omega
  funext j
  obtain ⟨p, q, rfl⟩ : ∃ (p : Fin 1024) (q : Fin 64), j = ix2 p q := ⟨j 0, j 1, eq_ix2 j⟩
  have hp : p.val < 1024 := p.isLt
  have hemb : ((cfg0.win 2).blk t).view.emb (ix2 p q) = ix2 (⟨t.val * 1024 + p.val, by omega⟩ : Fin 8192) q :=
    funext fun a => Fin.ext (by
      match a with
      | ⟨0, _⟩ => show win0_2.index t (0 : Fin 2) * 1024 + 1 * p.val = t.val * 1024 + p.val; omega
      | ⟨1, _⟩ => show win0_2.index t (1 : Fin 2) * 64 + 1 * q.val = q.val; omega)
  show k0_pay1 (iblk0 V c 0 t) (iblk0 V c 1 t) (ix2 p q) = Cert.SoftMoe.logits (F := Ideal) (V c main_v0) (V c main_arg1) (((cfg0.win 2).blk t).view.emb (ix2 p q))
  rw [hemb, Cert.SoftMoe.logits_apply]
  refine (pay_apply (iblk0 V c 0 t) (iblk0 V c 1 t) p q).trans ?_
  refine Finset.sum_congr rfl fun k _ => ?_
  rw [rows_read V c t p k ⟨t.val * 1024 + p.val, by omega⟩ rfl, whole_read V c t k q]

/-- An entry of the array is in point t's block iff each coordinate is in the block's range on its axis. -/
theorem mem_blk (t : Fin cfg0.N) (i : S8192x64.Idx) :
    i ∈ ((cfg0.win 2).blk t).view.set ↔ ∀ a : Fin 2, win0_2.index t a * S1024x64.size a ≤ (i a).val ∧ (i a).val < win0_2.index t a * S1024x64.size a + S1024x64.size a := by
  show i ∈ ((View.whole main_v1).slice (win0_2.rect t)).set ↔ _
  rw [View.set_slice_whole, Rect.mem_set_unit]
  exact Iff.rfl

/-- The eight row blocks tile the array — row r lies in the block of point r / 1024 —, so after the region the array
    is the logits of the tokens and the router matrix. -/
theorem arr_eq (c : Dev nD) :
    (dat0 (F := Ideal) V c).arrAt 2 cfg0.N = Cert.SoftMoe.logits (F := Ideal) (V c main_v0) (V c main_arg1) :=
  (dat0 V c).arrAt_eq_of_cover 2 _ (fun t _ => flushed_eq V c t) fun i => by
    have hN : grid0.N = 8 := N_0
    have hi0 : (i 0).val < 8192 := (i 0).isLt
    have hi1 : (i 1).val < 64 := (i 1).isLt
    have hlt : (i 0).val / 1024 < cfg0.N := by show (i 0).val / 1024 < grid0.N; omega
    obtain ⟨-, -, -, -, e4, e5⟩ := idx_facts ⟨(i 0).val / 1024, hlt⟩
    refine ⟨⟨(i 0).val / 1024, hlt⟩, flush0_2 _, ?_⟩
    rw [mem_blk]
    intro a
    match a with
    | ⟨0, _⟩ =>
      show win0_2.index ⟨(i 0).val / 1024, hlt⟩ (0 : Fin 2) * 1024 ≤ (i 0).val ∧ (i 0).val < win0_2.index ⟨(i 0).val / 1024, hlt⟩ (0 : Fin 2) * 1024 + 1024
      rw [e4]; dsimp only; omega
    | ⟨1, _⟩ =>
      show win0_2.index ⟨(i 0).val / 1024, hlt⟩ (1 : Fin 2) * 64 ≤ (i 1).val ∧ (i 1).val < win0_2.index ⟨(i 0).val / 1024, hlt⟩ (1 : Fin 2) * 64 + 64
      rw [e5]; omega

end Cert.KernelIdeal.Region0

end
-- ==== Proof.LibBlockSum.lean ====
/-
  A sum of `a * b` terms taken in `a` consecutive blocks of `b` terms, in any commutative additive monoid (the extended
  reals included: only commutativity and associativity of `+` are used, so infinite terms are allowed).
-/
import Mathlib.Algebra.BigOperators.Fin

namespace Cert.BlockSum

/-- The sum over `Fin (a * b)` is the sum over the `a` blocks of the sums inside each block: term `k = b * i + j`
    is term `j` of block `i`. -/
theorem sum_blocks {M : Type*} [AddCommMonoid M] (a b : ℕ) (f : ℕ → M) :
    ∑ k : Fin (a * b), f k.val = ∑ i : Fin a, ∑ j : Fin b, f (b * i.val + j.val) := by
  rw [← Fintype.sum_prod_type' (f := fun (i : Fin a) (j : Fin b) => f (b * i.val + j.val))]
  refine (Fintype.sum_equiv finProdFinEquiv _ _ (fun p => ?_)).symm
  simp [finProdFinEquiv, add_comm]

end Cert.BlockSum
-- ==== Proof.Region1.lean ====
/-
  Region 1 of the kernel: the slot inputs, accumulated over the eight row blocks of the tokens.

  The region's one output block, the whole [64, 1024] array, is an accumulator: the first point resets it to the zero
  block and adds its product, every later point adds its own, and the block is written back after the last point only.
  Point t's product at entry (n, d) is Σ_y rp (1024 t + y, n) · toks (1024 t + y, d), the transposed product of row
  block t of the dispatch weights rp with row block t of the tokens. So after point n the accumulator's entry is
  0 + Σ_{t ≤ n} of those sums, and after point 7 it is Σ_r rp (r, n) · toks (r, d) over all 8192 = 8 · 1024 tokens:
  entry (n, d) of the slot inputs. On the extended reals + is commutative and associative, which is all the regrouping
  uses; no finiteness is needed.
-/
import proofs.«138696_j23819888624292_1_alg».proof.Proof.SpecAt
import proofs.«138696_j23819888624292_1_alg».proof.Proof.KernelDots
import proofs.«138696_j23819888624292_1_alg».proof.Proof.LibBlockSum
import proofs.«138696_j23819888624292_1_alg».proof.Proof.Gen.KernelIdeal.Frame
import Idealize.ShloMosaic.Lib.Pipeline.Value
import Idealize.ShloMosaic.Lib.Tactic

set_option maxRecDepth 16384

noncomputable section

open Cert.KernelIdeal Cert.KernelIdeal.Gen Idealize.ShloMosaic Idealize.ShloMosaic.TcCoe Idealize.SL.Sem Idealize.ShloMosaic.ValueIdx
open Idealize.ShloMosaic.Pipeline (Dat)

namespace Cert.KernelIdeal.Region1

/-! ## What each control case leaves in the accumulator -/

theorem hz : (![0, 0] : Fin 2 → Nat) = fun _ => 0 := funext fun a => by fin_cases a <;> rfl

/-- At every point but the first the body leaves, in the accumulator holding `xo`, the payload of its one covering store
    at the two input blocks and `xo`: its three loads read whole buffers. -/
theorem out_B {F : FTy → Type} [FloatOps F] (c : Dev nD) (i : grid1.Coords) (a1 : Memref sig .tc .vmem S1024x64 .f32) (h1 : a1.IsWhole)
    (a2 : Memref sig .tc .vmem S1024x1024 .f32) (h2 : a2.IsWhole) (a3 : Memref sig .tc .vmem S64x1024 .f32) (h3 : a3.IsWhole)
    (hc : ¬cond1_0 i) (x0 : Vec F S1024x64 .f32) (x1 : Vec F S1024x1024 .f32) (xo : Vec F S64x1024 .f32) :
    out1_B_2 c i a1 h1 a2 h2 a3 h3 hc x0 x1 xo = k1_pay2 x0 x1 xo := by
  unfold out1_B_2
  rw [View.read_writes_eq_canon _ _ _ (cover1_B_2 c i a1 h1 a2 h2 a3 h3 hc x0 x1 xo)]
  unfold kernelRun1_B
  dsimp only
  rw [View.canon_unit_zero hz]
  simp only [View.readAt_eq_ld, h1.read_unread, h2.read_unread, h3.read_unread, View.ld_unit_zero (S := S1024x64) hz,
    View.ld_unit_zero (S := S1024x1024) hz, View.ld_unit_zero (S := S64x1024) hz]

/-- At the first point the body stores the zero block, reads it back, and leaves the same payload at the zero block. -/
theorem out_A {F : FTy → Type} [FloatOps F] (c : Dev nD) (i : grid1.Coords) (a1 : Memref sig .tc .vmem S1024x64 .f32) (h1 : a1.IsWhole)
    (a2 : Memref sig .tc .vmem S1024x1024 .f32) (h2 : a2.IsWhole) (a3 : Memref sig .tc .vmem S64x1024 .f32) (h3 : a3.IsWhole)
    (hc : cond1_0 i) (x0 : Vec F S1024x64 .f32) (x1 : Vec F S1024x1024 .f32) :
    out1_A_2 c i a1 h1 a2 h2 a3 h3 hc x0 x1 = k1_pay2 x0 x1 k1_pay1 := by
  unfold out1_A_2
  rw [View.read_writes_eq_canon _ _ _ (cover1_A_2 c i a1 h1 a2 h2 a3 h3 hc x0 x1)]
  unfold kernelRun1_A
  dsimp only
  sl_unfold_words
  rw [View.canon_cons_unit_zero (S := S64x1024) hz, View.readCov_unit_zero (S := S64x1024) _ hz]
  simp only [View.readAt_eq_ld, h1.read_unread, h2.read_unread, View.ld_unit_zero (S := S1024x64) hz,
    View.ld_unit_zero (S := S1024x1024) hz]

/-! ## The payloads at an entry, on the extended reals -/

/-- The zero block is 0 at every entry. -/
theorem pay1_apply (p : Fin 64) (q : Fin 1024) : k1_pay1 (F := Ideal) (ix2 p q) = 0 := by
  unfold k1_pay1
  exact Ideal.ofBits_zero_f32

/-- Entry (p, q) of the accumulating payload: the accumulator's entry plus Σ_k x0 (k, p) · x1 (k, q); the narrowing of
    the two factors is the identity on the extended reals. -/
theorem pay2_apply (x0 : Vec Ideal S1024x64 .f32) (x1 : Vec Ideal S1024x1024 .f32) (xo : Vec Ideal S64x1024 .f32)
    (p : Fin 64) (q : Fin 1024) :
    k1_pay2 (F := Ideal) x0 x1 xo (ix2 p q) = xo (ix2 p q) + ∑ k : Fin 1024, x0 (ix2 k p) * x1 (ix2 k q) := by
  unfold k1_pay2
  simp only [shapeCast_self]
  refine (addf_apply _ _ _).trans ?_
  refine congrArg (xo (ix2 p q) + ·) ?_
  exact Dots.slotTile_apply (truncf .bf16 x0 bitsLt_bf16_f32) (truncf .bf16 x1 bitsLt_bf16_f32) p q

/-! ## The input blocks, read where they sit in their arrays -/

/-- The block index maps, decided over the eight points: both inputs' blocks are at row block `t`, column block 0; the
    accumulator's one block is at (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0 :=
  (by decide +kernel : ∀ t : Fin grid1.N, _)

variable (V : (c : Dev nD) → (b : Ref sig .tc) → Buf (Elt Ideal) ((c : Thread nD τ).loc b))

/-- Row `y` of the dispatch weights' block at point `t` is row `1024 t + y` of the array. -/
theorem rp_block (c : Dev nD) (t : Fin cfg1.N) (y : Fin 1024) (n : Fin 64) (r : Fin 8192) (hr : r.val = 1024 * t.val + y.val) :
    iblk1 (F := Ideal) V c 0 t (ix2 y n) = V c main_v12 (ix2 r n) := by
  obtain ⟨e0, e1, -, -, -, -⟩ := idx_facts t
  unfold iblk1
  rw [View.read_apply]
  show V c main_v12 _ = V c main_v12 _
  congr 1
  funext a
  apply Fin.ext
  match a with
  | ⟨0, _⟩ => show win1_0.index t (0 : Fin 2) * 1024 + 1 * y.val = r.val; rw [e0, hr]; omega
  | ⟨1, _⟩ => show win1_0.index t (1 : Fin 2) * 64 + 1 * n.val = n.val; rw [e1]; omega

/-- Row `y` of the tokens' block at point `t` is row `1024 t + y` of the array. -/
theorem toks_block (c : Dev nD) (t : Fin cfg1.N) (y : Fin 1024) (d : Fin 1024) (r : Fin 8192) (hr : r.val = 1024 * t.val + y.val) :
    iblk1 (F := Ideal) V c 1 t (ix2 y d) = V c main_v0 (ix2 r d) := by
  obtain ⟨-, -, e0, e1, -, -⟩ := idx_facts t
  unfold iblk1
  rw [View.read_apply]
  show V c main_v0 _ = V c main_v0 _
  congr 1
  funext a
  apply Fin.ext
  match a with
  | ⟨0, _⟩ => show win1_1.index t (0 : Fin 2) * 1024 + 1 * y.val = r.val; rw [e0, hr]; omega
  | ⟨1, _⟩ => show win1_1.index t (1 : Fin 2) * 1024 + 1 * d.val = d.val; rw [e1]; omega

/-! ## The running sum -/

/-- Token `k`'s term of entry (n, d) of the slot inputs: rp (k, n) · toks (k, d); 0 past the last token. -/
def term (rp : Vec Ideal S8192x64 .f32) (toks : Vec Ideal S8192x1024 .f32) (n : Fin 64) (d : Fin 1024) (k : ℕ) : EReal :=
  if h : k < 8192 then rp (ix2 ⟨k, h⟩ n) * toks (ix2 ⟨k, h⟩ d) else 0

/-- The product of the two blocks' rows `y` at point `t` is token `1024 t + y`'s term. -/
theorem term_block (c : Dev nD) (t : Fin cfg1.N) (y : Fin 1024) (n : Fin 64) (d : Fin 1024) (a b : EReal)
    (ha : a = iblk1 (F := Ideal) V c 0 t (ix2 y n)) (hb : b = iblk1 (F := Ideal) V c 1 t (ix2 y d)) :
    a * b = term (V c main_v12) (V c main_v0) n d (1024 * t.val + y.val) := by
  subst ha hb
  have hN : t.val < 8 := lt_of_lt_of_eq t.isLt (show cfg1.N = 8 from N_1)
  have hk : 1024 * t.val + y.val < 8192 := by have := y.isLt; omega
  unfold term
  rw [dif_pos hk, rp_block V c t y n ⟨1024 * t.val + y.val, hk⟩ rfl, toks_block V c t y d ⟨1024 * t.val + y.val, hk⟩ rfl]

/-- After point `n` the accumulator's entry (p, q) is 0 plus the terms of the tokens of blocks 0 … n: by induction on the
    point, the first point starting from the zero block and every later one adding its block's terms. -/
theorem outsAt_eq (c : Dev nD) (p : Fin 64) (q : Fin 1024) : ∀ (n : ℕ) (h : n < cfg1.N),
    outsAt1 (F := Ideal) V c n h (ix2 p q)
      = 0 + ∑ t ∈ Finset.range (n + 1), ∑ y : Fin 1024, term (V c main_v12) (V c main_v0) p q (1024 * t + y.val)
  | 0, h => by
    refine (congrFun (outsAt1_A (F := Ideal) V c ⟨0, h⟩ rfl) (ix2 p q)).trans ?_
    refine (congrFun (out_A (F := Ideal) c (grid1.coords ⟨0, h⟩) (ms1_0 ⟨0, h⟩) (hs1_0 ⟨0, h⟩) (ms1_1 ⟨0, h⟩) (hs1_1 ⟨0, h⟩)
      (ms1_2 ⟨0, h⟩) (hs1_2 ⟨0, h⟩) ((hcond1_0 ⟨0, h⟩).mpr rfl) (iblk1 V c 0 ⟨0, h⟩) (iblk1 V c 1 ⟨0, h⟩)) (ix2 p q)).trans ?_
    refine (pay2_apply (iblk1 V c 0 ⟨0, h⟩) (iblk1 V c 1 ⟨0, h⟩) (k1_pay1 (F := Ideal)) p q).trans ?_
    rw [pay1_apply, Finset.sum_range_one]
    refine congrArg (0 + ·) ?_
    exact Finset.sum_congr rfl fun y _ => term_block V c ⟨0, h⟩ y p q
      (iblk1 (F := Ideal) V c 0 ⟨0, h⟩ (ix2 y p)) (iblk1 (F := Ideal) V c 1 ⟨0, h⟩ (ix2 y q)) rfl rfl
  | n + 1, h => by
    have hN : cfg1.N = 8 := N_1
    have hB : ¬(⟨n + 1, h⟩ : Fin cfg1.N).val % 8 = 0 := by dsimp only; omega
    refine (congrFun (outsAt1_B (F := Ideal) V c ⟨n + 1, h⟩ hB) (ix2 p q)).trans ?_
    refine (congrFun (out_B (F := Ideal) c (grid1.coords ⟨n + 1, h⟩) (ms1_0 ⟨n + 1, h⟩) (hs1_0 ⟨n + 1, h⟩) (ms1_1 ⟨n + 1, h⟩) (hs1_1 ⟨n + 1, h⟩)
      (ms1_2 ⟨n + 1, h⟩) (hs1_2 ⟨n + 1, h⟩) (fun hh => hB ((hcond1_0 ⟨n + 1, h⟩).mp hh)) (iblk1 V c 0 ⟨n + 1, h⟩) (iblk1 V c 1 ⟨n + 1, h⟩)
      (outsAt1 V c n (Nat.lt_of_succ_lt h))) (ix2 p q)).trans ?_
    refine (pay2_apply (iblk1 V c 0 ⟨n + 1, h⟩) (iblk1 V c 1 ⟨n + 1, h⟩) (outsAt1 V c n (Nat.lt_of_succ_lt h)) p q).trans ?_
    rw [outsAt_eq c p q n (Nat.lt_of_succ_lt h), Finset.sum_range_succ _ (n + 1), add_assoc]
    refine congrArg (0 + ·) ?_
    refine congrArg (_ + ·) ?_
    exact Finset.sum_congr rfl fun y _ => term_block V c ⟨n + 1, h⟩ y p q
      (iblk1 (F := Ideal) V c 0 ⟨n + 1, h⟩ (ix2 y p)) (iblk1 (F := Ideal) V c 1 ⟨n + 1, h⟩ (ix2 y q)) rfl rfl

/-- The terms of all 8192 tokens, taken in 8 blocks of 1024. -/
theorem sum_all (rp : Vec Ideal S8192x64 .f32) (toks : Vec Ideal S8192x1024 .f32) (n : Fin 64) (d : Fin 1024) :
    ∑ r : Fin 8192, rp (ix2 r n) * toks (ix2 r d)
      = ∑ t ∈ Finset.range 8, ∑ y : Fin 1024, term rp toks n d (1024 * t + y.val) := by
  rw [Finset.sum_range (fun t => ∑ y : Fin 1024, term rp toks n d (1024 * t + y.val))]
  refine Eq.trans ?_ (Cert.BlockSum.sum_blocks 8 1024 (term rp toks n d))
  refine Finset.sum_congr rfl fun r _ => ?_
  unfold term
  rw [dif_pos r.isLt]

/-- After the last point the accumulator holds the slot inputs. -/
theorem outs_final (c : Dev nD) (t : Fin cfg1.N) (h7 : t.val = 7) :
    outsAt1 (F := Ideal) V c t.val t.isLt = Cert.SoftMoe.slotInputs (F := Ideal) (V c main_v12) (V c main_v0) := by
  obtain ⟨n, h⟩ := t
  obtain rfl : n = 7 := h7
  show outsAt1 (F := Ideal) V c 7 h = _
  funext j
  obtain ⟨p, q, rfl⟩ : ∃ (p : Fin 64) (q : Fin 1024), j = ix2 p q := ⟨j 0, j 1, eq_ix2 j⟩
  rw [outsAt_eq V c p q 7 h, Cert.SoftMoe.slotInputs_apply, sum_all, zero_add]

/-! ## The result array -/

/-- The one write-back, after point 7, writes the slot inputs: block (0, 0) of the [64, 1024] array read through zero
    offsets is the array. -/
theorem flushed_eq (c : Dev nD) (t : Fin cfg1.N) (hf : (cfg1.win 2).flush t = true) :
    (dat1 (F := Ideal) V c).flushed 2 t
      = ((cfg1.win 2).blk t).view.read (Elt Ideal) (Cert.SoftMoe.slotInputs (F := Ideal) (V c main_v12) (V c main_v0)) := by
  have hN : cfg1.N = 8 := N_1
  have h7 : t.val = 7 := by have := (flush1_2 t).mp hf; have := t.isLt; omega
  obtain rfl : t = t1_7 := Fin.ext h7
  show (cfg1.win 2).cut (grid1.coords t1_7) ((dat1 (F := Ideal) V c).after 2 t1_7) = _
  rw [after1_2, outs_final V c t1_7 rfl]
  have hz' : (fun a => win1_2.index t1_7 a * main_v24.ty.shape.size a) = fun _ => 0 := funext fun a => by fin_cases a <;> decide
  exact (Memref.read_access_unit_zero (Elt Ideal) main_v24 hz' (fun a => by rw [congrFun hz' a]; simp)
    (Cert.SoftMoe.slotInputs (F := Ideal) (V c main_v12) (V c main_v0))).symm

/-- So the result array ends holding the slot inputs: point 7's block covers it. -/
theorem arr_eq (c : Dev nD) :
    (dat1 (F := Ideal) V c).arrAt 2 cfg1.N = Cert.SoftMoe.slotInputs (F := Ideal) (V c main_v12) (V c main_v0) :=
  (dat1 (F := Ideal) V c).arrAt_eq_of_cover 2 (Cert.SoftMoe.slotInputs (F := Ideal) (V c main_v12) (V c main_v0)) (flushed_eq V c) fun i =>
    ⟨t1_7, (flush1_2 t1_7).mpr rfl, by
      show i ∈ ((View.whole main_v24).slice (win1_2.rect t1_7)).set
      rw [View.set_slice_whole, Rect.mem_set_unit]
      intro a
      have h0 : (i 0 : Nat) < 64 := (i 0).isLt
      have h1 : (i 1 : Nat) < 1024 := (i 1).isLt
      match a with
      | ⟨0, _⟩ => show win1_2.index t1_7 0 * win1_2.size 0 ≤ (i 0 : Nat) ∧ (i 0 : Nat) < win1_2.index t1_7 0 * win1_2.size 0 + win1_2.xsize (grid1.coords t1_7) 0
                  rw [show win1_2.index t1_7 0 * win1_2.size 0 = 0 from by decide +kernel, show win1_2.xsize (grid1.coords t1_7) 0 = 64 from by decide +kernel]; omega
      | ⟨1, _⟩ => show win1_2.index t1_7 1 * win1_2.size 1 ≤ (i 1 : Nat) ∧ (i 1 : Nat) < win1_2.index t1_7 1 * win1_2.size 1 + win1_2.xsize (grid1.coords t1_7) 1
                  rw [show win1_2.index t1_7 1 * win1_2.size 1 = 0 from by decide +kernel, show win1_2.xsize (grid1.coords t1_7) 1 = 1024 from by decide +kernel]; omega⟩

end Cert.KernelIdeal.Region1

end
-- ==== Proof.Region2.lean ====
/-
  Region 2 of the kernel, the per-expert two-layer perceptron, read as a value on the extended reals.

  The grid is 32 × 2, point t = 2 e + f: expert e, band f of the hidden axis (columns 2048 f … 2048 f + 2047 of 4096).
  At f = 0 the output block of expert e is set to 0 and the band's contribution is added; at f = 1 the second band's
  contribution is added to what the block held and then the output bias row. A band's contribution to entry (p, d) is
      Q_f (p, d) = Σ_j gelu (Σ_k xs (e, p, k) · w1 (e, k, 2048 f + j) + b1 (e, 0, 2048 f + j)) · w2 (e, 2048 f + j, d),
  every product into a zero accumulator, so a plain finite sum. After point 2 e + 1 the block therefore holds
      ((0 + Q_0) + Q_1) + b2 (e, 0, d),
  and Σ_h over the 4096 hidden columns is Q_0 + Q_1 (the sum taken in two consecutive blocks), which is the layer's
  expert output at (e, p, d). Only commutativity and associativity of + and · are used; nothing needs to be finite.
  The block is written back exactly at the odd points, block (e, 0, 0) of the [32, 2, 1024] array, and these 32 blocks
  cover the array, so the array ends holding the experts' outputs (`arr_eq`).
-/
import proofs.«138696_j23819888624292_1_alg».proof.Proof.SpecAt
import proofs.«138696_j23819888624292_1_alg».proof.Proof.KernelDots
import proofs.«138696_j23819888624292_1_alg».proof.Proof.LibBlockSum
import proofs.«138696_j23819888624292_1_alg».proof.Proof.Gen.KernelIdeal.Frame
import Idealize.ShloMosaic.Lib.Pipeline.Value
import Idealize.ShloMosaic.Lib.Tactic

set_option maxRecDepth 16384

noncomputable section

open Cert.KernelIdeal Cert.KernelIdeal.Gen Idealize.ShloMosaic Idealize.ShloMosaic.TcCoe Idealize.SL.Sem Idealize.ShloMosaic.ValueIdx
open Idealize.ShloMosaic.Pipeline (Dat)

namespace Cert.KernelIdeal.Region2

variable {F : FTy → Type} [FloatOps F]

theorem hz : (![0, 0, 0] : Fin 3 → Nat) = fun _ => 0 := funext fun a => by fin_cases a <;> rfl

/-- What the body leaves in the output block at a point with f = 0: the zero block is stored, read back, and the
    band's partial product is added to it. -/
theorem out_A (c : Dev nD) (i : grid2.Coords) (arg2 : Memref sig .tc .vmem S1x2x1024 .f32) (harg2 : arg2.IsWhole) (arg3 : Memref sig .tc .vmem S1x1024x2048 .f32) (harg3 : arg3.IsWhole) (arg4 : Memref sig .tc .vmem S1x1x2048 .f32) (harg4 : arg4.IsWhole) (arg5 : Memref sig .tc .vmem S1x2048x1024 .f32) (harg5 : arg5.IsWhole) (arg6 : Memref sig .tc .vmem S1x1x1024 .f32) (harg6 : arg6.IsWhole) (arg7 : Memref sig .tc .vmem S1x2x1024 .f32) (harg7 : arg7.IsWhole) (hc0 : cond2_0 i) (hc1 : ¬cond2_1 i) (x0 : Vec F S1x2x1024 .f32) (x1 : Vec F S1x1024x2048 .f32) (x2 : Vec F S1x1x2048 .f32) (x3 : Vec F S1x2048x1024 .f32) (x4 : Vec F S1x1x1024 .f32) :
    out2_A_5 c i arg2 harg2 arg3 harg3 arg4 harg4 arg5 harg5 arg6 harg6 arg7 harg7 hc0 hc1 x0 x1 x2 x3 x4 = k2_pay1 (k2_pay4 x0 x1 x2 x3) (k2_pay5 (k2_pay3 (F := F))) := by
  unfold out2_A_5
  rw [View.read_writes_eq_canon _ _ _ (cover2_A_5 c i arg2 harg2 arg3 harg3 arg4 harg4 arg5 harg5 arg6 harg6 arg7 harg7 hc0 hc1 x0 x1 x2 x3 x4)]
  unfold kernelRun2_A
  dsimp only
  rw [View.canon_cons_unit_zero (S := S1x2x1024) hz]
  sl_unfold_words
  rw [View.readCov_unit_zero (S := S1x2x1024) _ hz]
  simp only [View.readAt_eq_ld, harg2.read_unread, harg3.read_unread, harg4.read_unread, harg5.read_unread,
    View.ld_unit_zero (S := S1x2x1024) hz, View.ld_unit_zero (S := S1x1024x2048) hz, View.ld_unit_zero (S := S1x1x2048) hz,
    View.ld_unit_zero (S := S1x2048x1024) hz]

/-- What the body leaves in the output block at a point with f = 1, the block holding `xo` before: the band's partial
    product is added to `xo`, the sum is stored and read back, and the output bias row is added to it. -/
theorem out_B (c : Dev nD) (i : grid2.Coords) (arg2 : Memref sig .tc .vmem S1x2x1024 .f32) (harg2 : arg2.IsWhole) (arg3 : Memref sig .tc .vmem S1x1024x2048 .f32) (harg3 : arg3.IsWhole) (arg4 : Memref sig .tc .vmem S1x1x2048 .f32) (harg4 : arg4.IsWhole) (arg5 : Memref sig .tc .vmem S1x2048x1024 .f32) (harg5 : arg5.IsWhole) (arg6 : Memref sig .tc .vmem S1x1x1024 .f32) (harg6 : arg6.IsWhole) (arg7 : Memref sig .tc .vmem S1x2x1024 .f32) (harg7 : arg7.IsWhole) (hc0 : ¬cond2_0 i) (hc1 : cond2_1 i) (x0 : Vec F S1x2x1024 .f32) (x1 : Vec F S1x1024x2048 .f32) (x2 : Vec F S1x1x2048 .f32) (x3 : Vec F S1x2048x1024 .f32) (x4 : Vec F S1x1x1024 .f32) (xo : Vec F S1x2x1024 .f32) :
    out2_B_5 c i arg2 harg2 arg3 harg3 arg4 harg4 arg5 harg5 arg6 harg6 arg7 harg7 hc0 hc1 x0 x1 x2 x3 x4 xo = k2_pay2 (k2_pay1 (k2_pay4 x0 x1 x2 x3) (k2_pay5 xo)) x4 := by
  unfold out2_B_5
  rw [View.read_writes_eq_canon _ _ _ (cover2_B_5 c i arg2 harg2 arg3 harg3 arg4 harg4 arg5 harg5 arg6 harg6 arg7 harg7 hc0 hc1 x0 x1 x2 x3 x4 xo)]
  unfold kernelRun2_B
  dsimp only
  rw [View.canon_cons_unit_zero (S := S1x2x1024) hz]
  sl_unfold_words
  rw [View.readCov_unit_zero (S := S1x2x1024) _ hz]
  simp only [View.readAt_eq_ld, harg2.read_unread, harg3.read_unread, harg4.read_unread, harg5.read_unread,
    harg6.read_unread, harg7.read_unread,
    View.ld_unit_zero (S := S1x2x1024) hz, View.ld_unit_zero (S := S1x1024x2048) hz, View.ld_unit_zero (S := S1x1x2048) hz,
    View.ld_unit_zero (S := S1x2048x1024) hz, View.ld_unit_zero (S := S1x1x1024) hz]

/-! ## The body's values read at an entry, on the extended reals -/

/-- Dropping a block's leading unit axis reads entry (p, q) at (0, p, q). -/
theorem drop_apply {α : Type} {a b : Nat} (v : (⟨3, ![1, a, b]⟩ : Shape).Idx → α)
    (h : (⟨3, ![1, a, b]⟩ : Shape).ShapeCasts ⟨2, ![a, b]⟩) (p : Fin a) (q : Fin b) :
    shapeCast ⟨2, ![a, b]⟩ v h (ix2 p q) = v (ix3 (0 : Fin 1) p q) :=
  shapeCast_apply v h (ix2 p q) (ix3 (0 : Fin 1) p q) (by
    rewrite [Shape.rowMajor_val_two, Shape.rowMajor_val_three]
    show ((0 : Nat) * a + p.val) * b + q.val = p.val * b + q.val
    rw [Nat.zero_mul, Nat.zero_add])

/-- Adding a leading unit axis reads entry (z, p, q) at (p, q). -/
theorem add_apply {α : Type} {a b : Nat} (v : (⟨2, ![a, b]⟩ : Shape).Idx → α)
    (h : (⟨2, ![a, b]⟩ : Shape).ShapeCasts ⟨3, ![1, a, b]⟩) (z : Fin 1) (p : Fin a) (q : Fin b) :
    shapeCast ⟨3, ![1, a, b]⟩ v h (ix3 z p q) = v (ix2 p q) :=
  shapeCast_apply v h (ix3 z p q) (ix2 p q) (by
    rewrite [Shape.rowMajor_val_two, Shape.rowMajor_val_three]
    show p.val * b + q.val = (z.val * a + p.val) * b + q.val
    have hz : z.val = 0 := by omega
    rw [hz, Nat.zero_mul, Nat.zero_add])

/-- The zero block reads 0 everywhere. -/
theorem pay3_apply (z : Fin 1) (p : Fin 2) (d : Fin 1024) : k2_pay3 (F := Ideal) (ix3 z p d) = 0 := by
  unfold k2_pay3
  refine (add_apply _ _ z p d).trans ?_
  exact Ideal.ofBits_zero_f32

/-- The read-back of the output block with its unit axis dropped. -/
theorem pay5_apply (v : Vec Ideal S1x2x1024 .f32) (p : Fin 2) (d : Fin 1024) :
    k2_pay5 (F := Ideal) v (ix2 p d) = v (ix3 (0 : Fin 1) p d) := by
  unfold k2_pay5
  exact drop_apply _ _ p d

/-- The accumulation: what the block held plus the band's partial product. -/
theorem pay1_apply (v31 v33 : FVec Ideal S2x1024 .f32) (z : Fin 1) (p : Fin 2) (d : Fin 1024) :
    k2_pay1 (F := Ideal) v31 v33 (ix3 z p d) = v33 (ix2 p d) + v31 (ix2 p d) := by
  unfold k2_pay1
  refine (add_apply _ _ z p d).trans ?_
  rfl

/-- The output bias row added to both slots. -/
theorem pay2_apply (v41 : Vec Ideal S1x2x1024 .f32) (v43 : Vec Ideal S1x1x1024 .f32) (z : Fin 1) (p : Fin 2) (d : Fin 1024) :
    k2_pay2 (F := Ideal) v41 v43 (ix3 z p d) = v41 (ix3 (0 : Fin 1) p d) + v43 (ix3 (0 : Fin 1) (0 : Fin 1) d) := by
  unfold k2_pay2
  refine (add_apply _ _ z p d).trans ?_
  show shapeCast S2x1024 v41 shapeCasts_S1x2x1024_S2x1024 (ix2 p d)
      + broadcastTo S2x1024 (shapeCast S1x1024 v43 shapeCasts_S1x1x1024_S1x1024) broadcasts_S1x1024_S2x1024 (ix2 p d) = _
  congr 1
  · exact drop_apply _ _ p d
  · refine (broadcastTo_apply _ broadcasts_S1x1024_S2x1024 (ix2 p d) (ix2 (0 : Fin 1) d) (fun a => ?_)).trans ?_
    · match a with
      | ⟨0, _⟩ => rfl
      | ⟨1, _⟩ => rfl
    · exact drop_apply _ _ (0 : Fin 1) d

/-- The hidden pre-activations of one band, as the body spells them. -/
def hidK (x0 : Vec Ideal S1x2x1024 .f32) (x1 : Vec Ideal S1x1024x2048 .f32) (x2 : Vec Ideal S1x1x2048 .f32) : FVec Ideal S2x2048 .f32 :=
  addf (matmul dot_S2x1024_S1024x2048_S2x2048_1_0_0_1_n_n none
      (truncf .bf16 (shapeCast S2x1024 x0 shapeCasts_S1x2x1024_S2x1024) bitsLt_bf16_f32)
      (truncf .bf16 (shapeCast S1024x2048 x1 shapeCasts_S1x1024x2048_S1024x2048) bitsLt_bf16_f32)
      (constant S2x2048 .f32 0x00000000#32))
    (broadcastTo S2x2048 (shapeCast S1x2048 x2 shapeCasts_S1x1x2048_S1x2048) broadcasts_S1x2048_S2x2048)

/-- gelu in its tanh form, as the body spells it on a band. -/
def geluK (h : FVec Ideal S2x2048 .f32) : FVec Ideal S2x2048 .f32 :=
  mulf h (mulf (broadcast S2x2048 (Scalar.ofBits .f32 0x3F000000#32))
    (addf (broadcast S2x2048 (Scalar.ofBits .f32 0x3F800000#32))
      (tanh (mulf (broadcast S2x2048 (Scalar.ofBits .f32 0x3F4C422A#32))
        (addf h (mulf (broadcast S2x2048 (Scalar.ofBits .f32 0x3D372713#32)) (mulf h (mulf h h))))))))

/-- The band's partial product is the second product of the activated band. -/
theorem pay4_eq (x0 : Vec Ideal S1x2x1024 .f32) (x1 : Vec Ideal S1x1024x2048 .f32) (x2 : Vec Ideal S1x1x2048 .f32)
    (x3 : Vec Ideal S1x2048x1024 .f32) :
    k2_pay4 (F := Ideal) x0 x1 x2 x3 = matmul dot_S2x2048_S2048x1024_S2x1024_1_0_0_1_n_n none
      (truncf .bf16 (geluK (hidK x0 x1 x2)) bitsLt_bf16_f32)
      (truncf .bf16 (shapeCast S2048x1024 x3 shapeCasts_S1x2048x1024_S2048x1024) bitsLt_bf16_f32)
      (constant S2x1024 .f32 0x00000000#32) := rfl

/-- Entry (p, j) of the band's pre-activations: the inner product of slot p with column j of the band, plus the bias. -/
theorem hidK_apply (x0 : Vec Ideal S1x2x1024 .f32) (x1 : Vec Ideal S1x1024x2048 .f32) (x2 : Vec Ideal S1x1x2048 .f32)
    (p : Fin 2) (j : Fin 2048) :
    hidK x0 x1 x2 (ix2 p j)
      = (∑ k : Fin 1024, x0 (ix3 (0 : Fin 1) p k) * x1 (ix3 (0 : Fin 1) k j)) + x2 (ix3 (0 : Fin 1) (0 : Fin 1) j) := by
  unfold hidK
  refine (addf_apply _ _ (ix2 p j)).trans ?_
  congr 1
  · refine (Dots.upTile_apply _ _ p j).trans ?_
    refine Finset.sum_congr rfl fun k _ => ?_
    congr 1
    · exact drop_apply _ _ p k
    · exact drop_apply _ _ k j
  · refine (broadcastTo_apply _ broadcasts_S1x2048_S2x2048 (ix2 p j) (ix2 (0 : Fin 1) j) (fun a => ?_)).trans ?_
    · match a with
      | ⟨0, _⟩ => rfl
      | ⟨1, _⟩ => rfl
    · exact drop_apply _ _ (0 : Fin 1) j

/-- The body's gelu acts entry by entry, and is the layer's gelu there (x · (x · x) = (x · x) · x). -/
theorem geluK_apply (h : FVec Ideal S2x2048 .f32) (i : S2x2048.Idx) : geluK h i = Cert.SoftMoe.geluAt (h i) := by
  unfold geluK Cert.SoftMoe.geluAt
  show h i * (Ideal.ofBits .f32 0x3F000000#32 * (Ideal.ofBits .f32 0x3F800000#32
    + Ideal.tanh (Ideal.ofBits .f32 0x3F4C422A#32 * (h i + Ideal.ofBits .f32 0x3D372713#32 * (h i * (h i * h i)))))) = _
  rw [mul_comm (h i * h i) (h i)]

/-- Entry (p, d) of the band's partial product. -/
theorem pay4_apply (x0 : Vec Ideal S1x2x1024 .f32) (x1 : Vec Ideal S1x1024x2048 .f32) (x2 : Vec Ideal S1x1x2048 .f32)
    (x3 : Vec Ideal S1x2048x1024 .f32) (p : Fin 2) (d : Fin 1024) :
    k2_pay4 (F := Ideal) x0 x1 x2 x3 (ix2 p d)
      = ∑ j : Fin 2048, Cert.SoftMoe.geluAt ((∑ k : Fin 1024, x0 (ix3 (0 : Fin 1) p k) * x1 (ix3 (0 : Fin 1) k j))
          + x2 (ix3 (0 : Fin 1) (0 : Fin 1) j)) * x3 (ix3 (0 : Fin 1) j d) := by
  refine (congrFun (pay4_eq x0 x1 x2 x3) (ix2 p d)).trans ?_
  refine (Dots.downTile_apply _ _ p d).trans ?_
  refine Finset.sum_congr rfl fun j _ => ?_
  congr 1
  · show geluK (hidK x0 x1 x2) (ix2 p j) = _
    rw [geluK_apply, hidK_apply]
  · exact drop_apply _ _ j d

/-! ## The two control cases' values at an entry -/

/-- One band's contribution to entry (p, d): Σ_j gelu (Σ_k x0 (p, k) · x1 (k, j) + x2 (j)) · x3 (j, d). -/
def Qsum (x0 : Vec Ideal S1x2x1024 .f32) (x1 : Vec Ideal S1x1024x2048 .f32) (x2 : Vec Ideal S1x1x2048 .f32)
    (x3 : Vec Ideal S1x2048x1024 .f32) (p : Fin 2) (d : Fin 1024) : EReal :=
  ∑ j : Fin 2048, Cert.SoftMoe.geluAt ((∑ k : Fin 1024, x0 (ix3 (0 : Fin 1) p k) * x1 (ix3 (0 : Fin 1) k j))
    + x2 (ix3 (0 : Fin 1) (0 : Fin 1) j)) * x3 (ix3 (0 : Fin 1) j d)

/-- At f = 0 the block ends at 0 + the band's contribution. -/
theorem val_A (x0 : Vec Ideal S1x2x1024 .f32) (x1 : Vec Ideal S1x1024x2048 .f32) (x2 : Vec Ideal S1x1x2048 .f32)
    (x3 : Vec Ideal S1x2048x1024 .f32) (z : Fin 1) (p : Fin 2) (d : Fin 1024) :
    k2_pay1 (F := Ideal) (k2_pay4 x0 x1 x2 x3) (k2_pay5 (k2_pay3 (F := Ideal))) (ix3 z p d) = Qsum x0 x1 x2 x3 p d := by
  refine (pay1_apply _ _ z p d).trans ?_
  rw [pay5_apply, pay3_apply, pay4_apply, zero_add]
  rfl

/-- At f = 1 the block ends at what it held, plus the band's contribution, plus the output bias. -/
theorem val_B (x0 : Vec Ideal S1x2x1024 .f32) (x1 : Vec Ideal S1x1024x2048 .f32) (x2 : Vec Ideal S1x1x2048 .f32)
    (x3 : Vec Ideal S1x2048x1024 .f32) (x4 : Vec Ideal S1x1x1024 .f32) (xo : Vec Ideal S1x2x1024 .f32)
    (z : Fin 1) (p : Fin 2) (d : Fin 1024) :
    k2_pay2 (F := Ideal) (k2_pay1 (k2_pay4 x0 x1 x2 x3) (k2_pay5 xo)) x4 (ix3 z p d)
      = (xo (ix3 (0 : Fin 1) p d) + Qsum x0 x1 x2 x3 p d) + x4 (ix3 (0 : Fin 1) (0 : Fin 1) d) := by
  refine (pay2_apply _ _ z p d).trans ?_
  rw [pay1_apply, pay5_apply, pay4_apply]
  rfl

/-! ## The windows' blocks read at an entry -/

section Blocks
variable (V : (c : Dev nD) → (b : Ref sig .tc) → Buf (Elt Ideal) ((c : Thread nD τ).loc b))

/-- The printed index maps at point t = 2 e + f, decided over the grid: every window sits at expert e = t / 2, the two
    weight bands and the hidden bias at band f = t % 2, everything else at block 0. -/
theorem idx_facts : ∀ t : Fin cfg2.N,
    (win2_0.index t (0 : Fin 3) = t.val / 2 ∧ win2_0.index t (1 : Fin 3) = 0 ∧ win2_0.index t (2 : Fin 3) = 0)
    ∧ (win2_1.index t (0 : Fin 3) = t.val / 2 ∧ win2_1.index t (1 : Fin 3) = 0 ∧ win2_1.index t (2 : Fin 3) = t.val % 2)
    ∧ (win2_2.index t (0 : Fin 3) = t.val / 2 ∧ win2_2.index t (1 : Fin 3) = 0 ∧ win2_2.index t (2 : Fin 3) = t.val % 2)
    ∧ (win2_3.index t (0 : Fin 3) = t.val / 2 ∧ win2_3.index t (1 : Fin 3) = t.val % 2 ∧ win2_3.index t (2 : Fin 3) = 0)
    ∧ (win2_4.index t (0 : Fin 3) = t.val / 2 ∧ win2_4.index t (1 : Fin 3) = 0 ∧ win2_4.index t (2 : Fin 3) = 0)
    ∧ (win2_5.index t (0 : Fin 3) = t.val / 2 ∧ win2_5.index t (1 : Fin 3) = 0 ∧ win2_5.index t (2 : Fin 3) = 0) :=
  (by decide +kernel : ∀ t : Fin grid2.N, _)

/-- The expert of point t. -/
def eOf (t : Fin cfg2.N) : Fin 32 := ⟨t.val / 2, by have := t.isLt; have hN : cfg2.N = 64 := N_2; omega⟩

/-- Column j of point t's band, in the full hidden axis. -/
def hOf (t : Fin cfg2.N) (j : Fin 2048) : Fin 4096 := ⟨2048 * (t.val % 2) + j.val, by have := j.isLt; omega⟩

theorem blk0_apply (c : Dev nD) (t : Fin cfg2.N) (z : Fin 1) (p : Fin 2) (k : Fin 1024) :
    (iblk2 V c 0 t : Vec Ideal S1x2x1024 .f32) (ix3 z p k) = V c main_v25 (ix3 (eOf t) p k) := by
  obtain ⟨⟨e0, e1, e2⟩, -⟩ := idx_facts t
  show V c main_v25 (((cfg2.win 0).blk t).view.emb (ix3 z p k)) = _
  congr 1
  funext a; apply Fin.ext
  match a with
  | ⟨0, _⟩ => show win2_0.index t (0 : Fin 3) * 1 + 1 * z.val = t.val / 2; rw [e0]; omega
  | ⟨1, _⟩ => show win2_0.index t (1 : Fin 3) * 2 + 1 * p.val = p.val; rw [e1]; omega
  | ⟨2, _⟩ => show win2_0.index t (2 : Fin 3) * 1024 + 1 * k.val = k.val; rw [e2]; omega

theorem blk1_apply (c : Dev nD) (t : Fin cfg2.N) (z : Fin 1) (k : Fin 1024) (j : Fin 2048) :
    (iblk2 V c 1 t : Vec Ideal S1x1024x2048 .f32) (ix3 z k j) = V c main_arg2 (ix3 (eOf t) k (hOf t j)) := by
  obtain ⟨-, ⟨e0, e1, e2⟩, -⟩ := idx_facts t
  show V c main_arg2 (((cfg2.win 1).blk t).view.emb (ix3 z k j)) = _
  congr 1
  funext a; apply Fin.ext
  match a with
  | ⟨0, _⟩ => show win2_1.index t (0 : Fin 3) * 1 + 1 * z.val = t.val / 2; rw [e0]; omega
  | ⟨1, _⟩ => show win2_1.index t (1 : Fin 3) * 1024 + 1 * k.val = k.val; rw [e1]; omega
  | ⟨2, _⟩ => show win2_1.index t (2 : Fin 3) * 2048 + 1 * j.val = 2048 * (t.val % 2) + j.val; rw [e2]; omega

theorem blk2_apply (c : Dev nD) (t : Fin cfg2.N) (z z' : Fin 1) (j : Fin 2048) :
    (iblk2 V c 2 t : Vec Ideal S1x1x2048 .f32) (ix3 z z' j) = V c main_v26 (ix3 (eOf t) (0 : Fin 1) (hOf t j)) := by
  obtain ⟨-, -, ⟨e0, e1, e2⟩, -⟩ := idx_facts t
  show V c main_v26 (((cfg2.win 2).blk t).view.emb (ix3 z z' j)) = _
  congr 1
  funext a; apply Fin.ext
  match a with
  | ⟨0, _⟩ => show win2_2.index t (0 : Fin 3) * 1 + 1 * z.val = t.val / 2; rw [e0]; omega
  | ⟨1, _⟩ => show win2_2.index t (1 : Fin 3) * 1 + 1 * z'.val = 0; rw [e1]; omega
  | ⟨2, _⟩ => show win2_2.index t (2 : Fin 3) * 2048 + 1 * j.val = 2048 * (t.val % 2) + j.val; rw [e2]; omega

theorem blk3_apply (c : Dev nD) (t : Fin cfg2.N) (z : Fin 1) (j : Fin 2048) (d : Fin 1024) :
    (iblk2 V c 3 t : Vec Ideal S1x2048x1024 .f32) (ix3 z j d) = V c main_arg4 (ix3 (eOf t) (hOf t j) d) := by
  obtain ⟨-, -, -, ⟨e0, e1, e2⟩, -⟩ := idx_facts t
  show V c main_arg4 (((cfg2.win 3).blk t).view.emb (ix3 z j d)) = _
  congr 1
  funext a; apply Fin.ext
  match a with
  | ⟨0, _⟩ => show win2_3.index t (0 : Fin 3) * 1 + 1 * z.val = t.val / 2; rw [e0]; omega
  | ⟨1, _⟩ => show win2_3.index t (1 : Fin 3) * 2048 + 1 * j.val = 2048 * (t.val % 2) + j.val; rw [e1]; omega
  | ⟨2, _⟩ => show win2_3.index t (2 : Fin 3) * 1024 + 1 * d.val = d.val; rw [e2]; omega

theorem blk4_apply (c : Dev nD) (t : Fin cfg2.N) (z z' : Fin 1) (d : Fin 1024) :
    (iblk2 V c 4 t : Vec Ideal S1x1x1024 .f32) (ix3 z z' d) = V c main_v27 (ix3 (eOf t) (0 : Fin 1) d) := by
  obtain ⟨-, -, -, -, ⟨e0, e1, e2⟩, -⟩ := idx_facts t
  show V c main_v27 (((cfg2.win 4).blk t).view.emb (ix3 z z' d)) = _
  congr 1
  funext a; apply Fin.ext
  match a with
  | ⟨0, _⟩ => show win2_4.index t (0 : Fin 3) * 1 + 1 * z.val = t.val / 2; rw [e0]; omega
  | ⟨1, _⟩ => show win2_4.index t (1 : Fin 3) * 1 + 1 * z'.val = 0; rw [e1]; omega
  | ⟨2, _⟩ => show win2_4.index t (2 : Fin 3) * 1024 + 1 * d.val = d.val; rw [e2]; omega

end Blocks

/-! ## The sum over the hidden axis in its two bands -/

/-- A sum over 4096 terms is the sum over its first 2048 plus the sum over its last 2048. -/
theorem sum_two_bands {M : Type*} [AddCommMonoid M] (G : Fin 4096 → M) (b0 b1 : Fin 2048 → Fin 4096)
    (h0 : ∀ j, (b0 j).val = j.val) (h1 : ∀ j, (b1 j).val = 2048 + j.val) :
    ∑ h : Fin 4096, G h = (∑ j : Fin 2048, G (b0 j)) + ∑ j : Fin 2048, G (b1 j) := by
  let g : ℕ → M := fun n => if hn : n < 4096 then G ⟨n, hn⟩ else 0
  have e1 : ∑ h : Fin 4096, G h = ∑ h : Fin 4096, g h.val := Finset.sum_congr rfl fun h _ => by
    show G h = (if hn : h.val < 4096 then G ⟨h.val, hn⟩ else 0)
    rw [dif_pos h.isLt]
  have e2 : ∑ h : Fin 4096, g h.val = ∑ i : Fin 2, ∑ j : Fin 2048, g (2048 * i.val + j.val) :=
    Cert.BlockSum.sum_blocks 2 2048 g
  rw [e1, e2, Fin.sum_univ_two]
  refine congrArg₂ (· + ·) ?_ ?_
  · refine Finset.sum_congr rfl fun j _ => ?_
    have hj := j.isLt
    have hlt : 2048 * (0 : Fin 2).val + j.val < 4096 := by show 2048 * 0 + j.val < 4096; omega
    exact (dif_pos hlt).trans (congrArg G (Fin.ext (by have e := h0 j; show 2048 * 0 + j.val = (b0 j).val; omega)))
  · refine Finset.sum_congr rfl fun j _ => ?_
    have hj := j.isLt
    have hlt : 2048 * (1 : Fin 2).val + j.val < 4096 := by show 2048 * 1 + j.val < 4096; omega
    exact (dif_pos hlt).trans (congrArg G (Fin.ext (by have e := h1 j; show 2048 * 1 + j.val = (b1 j).val; omega)))

/-! ## The output block after an expert's second point, the write-back, and the array -/

section Main
variable (V : (c : Dev nD) → (b : Ref sig .tc) → Buf (Elt Ideal) ((c : Thread nD τ).loc b))

/-- One band's contribution at point t, read off the arrays: the band's columns sit at 2048 f + j of the hidden axis. -/
theorem Q_blk (c : Dev nD) (t : Fin cfg2.N) (p : Fin 2) (d : Fin 1024) :
    Qsum (iblk2 V c 0 t) (iblk2 V c 1 t) (iblk2 V c 2 t) (iblk2 V c 3 t) p d
      = ∑ j : Fin 2048, Cert.SoftMoe.geluAt (Cert.SoftMoe.hidden (F := Ideal) (V c main_v25) (V c main_arg2) (V c main_v26) (ix3 (eOf t) p (hOf t j))) * V c main_arg4 (ix3 (eOf t) (hOf t j) d) := by
  unfold Qsum
  refine Finset.sum_congr rfl fun j _ => ?_
  rw [Cert.SoftMoe.hidden_apply, blk3_apply V c t 0 j d, blk2_apply V c t 0 0 j]
  simp only [blk0_apply V c t, blk1_apply V c t]

/-- After an expert's second point (t odd) the output block holds the expert's outputs: (0 + band 0) + band 1 + bias. -/
theorem outs_odd (c : Dev nD) (t : Fin cfg2.N) (h1 : t.val % 2 = 1) (z : Fin 1) (p : Fin 2) (d : Fin 1024) :
    outsAt2 V c t.val t.isLt (ix3 z p d) = Cert.SoftMoe.experts (F := Ideal) (V c main_v25) (V c main_arg2) (V c main_v26) (V c main_arg4) (V c main_v27) (ix3 (eOf t) p d) := by
  have hN : cfg2.N = 64 := N_2
  have h0 : ¬t.val % 2 = 0 := by omega
  have hlt : t.val - 1 < cfg2.N := Nat.lt_of_le_of_lt (Nat.sub_le _ _) t.isLt
  let tp : Fin cfg2.N := ⟨t.val - 1, hlt⟩
  have hp0 : tp.val % 2 = 0 := by show (t.val - 1) % 2 = 0; omega
  have hp1 : ¬tp.val % 2 = 1 := by omega
  have he : eOf tp = eOf t := Fin.ext (by show (t.val - 1) / 2 = t.val / 2; omega)
  have hA : outsAt2 V c (t.val - 1) hlt (ix3 (0 : Fin 1) p d) = Qsum (iblk2 V c 0 tp) (iblk2 V c 1 tp) (iblk2 V c 2 tp) (iblk2 V c 3 tp) p d := by
    refine (congrFun (outsAt2_A V c tp hp0 hp1) (ix3 (0 : Fin 1) p d)).trans ?_
    refine (congrFun (out_A (F := Ideal) c (grid2.coords tp) (ms2_0 tp) (hs2_0 tp) (ms2_1 tp) (hs2_1 tp) (ms2_2 tp) (hs2_2 tp) (ms2_3 tp) (hs2_3 tp) (ms2_4 tp) (hs2_4 tp) (ms2_5 tp) (hs2_5 tp) ((hcond2_0 tp).mpr hp0) (fun h => hp1 ((hcond2_1 tp).mp h))
      (iblk2 V c 0 tp) (iblk2 V c 1 tp) (iblk2 V c 2 tp) (iblk2 V c 3 tp) (iblk2 V c 4 tp)) (ix3 (0 : Fin 1) p d)).trans ?_
    exact val_A (iblk2 V c 0 tp) (iblk2 V c 1 tp) (iblk2 V c 2 tp) (iblk2 V c 3 tp) 0 p d
  refine (congrFun (outsAt2_B V c t h0 h1) (ix3 z p d)).trans ?_
  refine (congrFun (out_B (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) ((hcond2_1 t).mpr h1)
    (iblk2 V c 0 t) (iblk2 V c 1 t) (iblk2 V c 2 t) (iblk2 V c 3 t) (iblk2 V c 4 t) (outsAt2 V c (t.val - 1) hlt)) (ix3 z p d)).trans ?_
  refine (val_B (iblk2 V c 0 t) (iblk2 V c 1 t) (iblk2 V c 2 t) (iblk2 V c 3 t) (iblk2 V c 4 t) (outsAt2 V c (t.val - 1) hlt) z p d).trans ?_
  rw [hA, Q_blk V c tp p d, Q_blk V c t p d, blk4_apply V c t 0 0 d, Cert.SoftMoe.experts_apply, he]
  congr 1
  exact (sum_two_bands
    (fun h => Cert.SoftMoe.geluAt (Cert.SoftMoe.hidden (F := Ideal) (V c main_v25) (V c main_arg2) (V c main_v26) (ix3 (eOf t) p h)) * V c main_arg4 (ix3 (eOf t) h d))
    (hOf tp) (hOf t)
    (fun j => by show 2048 * ((t.val - 1) % 2) + j.val = j.val; omega)
    (fun j => by show 2048 * (t.val % 2) + j.val = 2048 + j.val; omega)).symm

/-- What an expert's second point writes back is its block of the experts' outputs. -/
theorem flushed_eq (c : Dev nD) (t : Fin cfg2.N) (hf : (cfg2.win 5).flush t = true) :
    (dat2 V c).flushed 5 t = ((cfg2.win 5).blk t).view.read (Elt Ideal) (Cert.SoftMoe.experts (F := Ideal) (V c main_v25) (V c main_arg2) (V c main_v26) (V c main_arg4) (V c main_v27)) := by
  have h1 : t.val % 2 = 1 := (flush2_5 t).mp hf
  obtain ⟨-, -, -, -, -, ⟨e0, e1, e2⟩⟩ := idx_facts t
  have key : ∀ j : S1x2x1024.Idx, outsAt2 V c t.val t.isLt j = Cert.SoftMoe.experts (F := Ideal) (V c main_v25) (V c main_arg2) (V c main_v26) (V c main_arg4) (V c main_v27) (((cfg2.win 5).blk t).view.emb j) := by
    intro j
    obtain ⟨z, p, d, rfl⟩ : ∃ (z : Fin 1) (p : Fin 2) (d : Fin 1024), j = ix3 z p d := ⟨j 0, j 1, j 2, eq_ix3 j⟩
    rw [outs_odd V c t h1 z p d]
    congr 1
    funext a; apply Fin.ext
    match a with
    | ⟨0, _⟩ => show t.val / 2 = win2_5.index t (0 : Fin 3) * 1 + 1 * z.val; rw [e0]; omega
    | ⟨1, _⟩ => show p.val = win2_5.index t (1 : Fin 3) * 2 + 1 * p.val; rw [e1]; omega
    | ⟨2, _⟩ => show d.val = win2_5.index t (2 : Fin 3) * 1024 + 1 * d.val; rw [e2]; omega
  show (cfg2.win 5).cut (grid2.coords t) ((dat2 V c).after 5 t) = _
  rw [after2_5]
  funext j
  exact key j

/-- An entry of the output array is in point t's block iff each coordinate is in the block's range on its axis. -/
theorem mem_blk (t : Fin cfg2.N) (i : S32x2x1024.Idx) :
    i ∈ ((cfg2.win 5).blk t).view.set ↔ ∀ a : Fin 3, win2_5.index t a * S1x2x1024.size a ≤ (i a).val ∧ (i a).val < win2_5.index t a * S1x2x1024.size a + S1x2x1024.size a := by
  show i ∈ ((View.whole main_v28).slice (win2_5.rect t)).set ↔ _
  rw [View.set_slice_whole, Rect.mem_set_unit]
  exact Iff.rfl

/-- The region's output array ends holding the experts' outputs: entry (e, p, d) is written back at point 2 e + 1. -/
theorem arr_eq (c : Dev nD) : (dat2 (F := Ideal) V c).arrAt 5 cfg2.N = Cert.SoftMoe.experts (F := Ideal) (V c main_v25) (V c main_arg2) (V c main_v26) (V c main_arg4) (V c main_v27) :=
  (dat2 V c).arrAt_eq_of_cover 5 _ (flushed_eq V c) fun i => by
    have hN : cfg2.N = 64 := N_2
    have hi0 : (i 0).val < 32 := (i 0).isLt
    have hi1 : (i 1).val < 2 := (i 1).isLt
    have hi2 : (i 2).val < 1024 := (i 2).isLt
    have hlt : 2 * (i 0).val + 1 < cfg2.N := by omega
    obtain ⟨⟨-, -, -, -, -, ⟨e0, e1, e2⟩⟩, ht⟩ :
        (_ ∧ (⟨2 * (i 0).val + 1, hlt⟩ : Fin cfg2.N).val = 2 * (i 0).val + 1) := ⟨idx_facts ⟨2 * (i 0).val + 1, hlt⟩, rfl⟩
    refine ⟨⟨2 * (i 0).val + 1, hlt⟩, (flush2_5 _).mpr (by show (2 * (i 0).val + 1) % 2 = 1; omega), ?_⟩
    rw [mem_blk]
    intro a
    match a with
    | ⟨0, _⟩ => show win2_5.index ⟨2 * (i 0).val + 1, hlt⟩ (0 : Fin 3) * 1 ≤ (i 0).val ∧ (i 0).val < win2_5.index ⟨2 * (i 0).val + 1, hlt⟩ (0 : Fin 3) * 1 + 1
                rw [e0]; show (2 * (i 0).val + 1) / 2 * 1 ≤ (i 0).val ∧ (i 0).val < (2 * (i 0).val + 1) / 2 * 1 + 1; omega
    | ⟨1, _⟩ => show win2_5.index ⟨2 * (i 0).val + 1, hlt⟩ (1 : Fin 3) * 2 ≤ (i 1).val ∧ (i 1).val < win2_5.index ⟨2 * (i 0).val + 1, hlt⟩ (1 : Fin 3) * 2 + 2
                rw [e1]; omega
    | ⟨2, _⟩ => show win2_5.index ⟨2 * (i 0).val + 1, hlt⟩ (2 : Fin 3) * 1024 ≤ (i 2).val ∧ (i 2).val < win2_5.index ⟨2 * (i 0).val + 1, hlt⟩ (2 : Fin 3) * 1024 + 1024
                rw [e2]; omega

end Main

end Cert.KernelIdeal.Region2

end
-- ==== Proof.Region3.lean ====
/-
  Region 3: the mixture. The 8192 rows of combine weights are cut into eight blocks of 1024 rows; grid point t multiplies
  its block by the whole 64 × 1024 matrix of expert outputs and writes back rows 1024·t … 1024·t + 1023 of the result.
  Row r of the result is therefore Σ_n weight (r, n) · output (n, ·), entry by entry a sum of 64 products: the array
  the region leaves is the mixture of the layer.
-/
import proofs.«138696_j23819888624292_1_alg».proof.Proof.SpecAt
import proofs.«138696_j23819888624292_1_alg».proof.Proof.KernelDots
import proofs.«138696_j23819888624292_1_alg».proof.Proof.Gen.KernelIdeal.Frame
import Idealize.ShloMosaic.Lib.Pipeline.Value

set_option maxRecDepth 16384

noncomputable section

namespace Cert.KernelIdeal.Region3

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's one stored value at entry (p, q): the inner product of row p of the weight block with column q of the expert outputs. -/
theorem pay_apply (x0 : Vec Ideal S1024x64 .f32) (x1 : Vec Ideal S64x1024 .f32) (p : Fin 1024) (q : Fin 1024) :
    k3_pay1 x0 x1 (ix2 p q) = ∑ k : Fin 64, x0 (ix2 p k) * x1 (ix2 k q) := by
  unfold k3_pay1
  simp only [shapeCast_self]
  exact Dots.mixTile_apply _ _ p q

/-- The printed index maps over the eight grid points: the row-tiled windows sit at block (t, 0), the shared
    matrix at block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row p of point t's block of the row-tiled operand is row 1024·t + p of its array. -/
theorem rows_read (c : Dev nD) (t : Fin cfg3.N) (p : Fin 1024) (k : Fin 64) (r : Fin 8192) (hr : r.val = t.val * 1024 + p.val) :
    iblk3 V c 0 t (ix2 p k) = V c main_v23 (ix2 r k) := by
  obtain ⟨e0, e1, -, -, -, -⟩ := idx_facts t
  show V c main_v23 (((cfg3.win 0).blk t).view.emb (ix2 p k)) = V c main_v23 (ix2 r k)
  refine congrArg (V c main_v23) (funext fun a => Fin.ext ?_)
  match a with
  | ⟨0, _⟩ => show win3_0.index t (0 : Fin 2) * 1024 + 1 * p.val = r.val; omega
  | ⟨1, _⟩ => show win3_0.index t (1 : Fin 2) * 64 + 1 * k.val = k.val; omega

/-- Every point's block of the shared matrix is the whole matrix. -/
theorem whole_read (c : Dev nD) (t : Fin cfg3.N) (k : Fin 64) (q : Fin 1024) :
    iblk3 V c 1 t (ix2 k q) = V c main_v29 (ix2 k q) := by
  obtain ⟨-, -, e2, e3, -, -⟩ := idx_facts t
  show V c main_v29 (((cfg3.win 1).blk t).view.emb (ix2 k q)) = V c main_v29 (ix2 k q)
  refine congrArg (V c main_v29) (funext fun a => Fin.ext ?_)
  match a with
  | ⟨0, _⟩ => show win3_1.index t (0 : Fin 2) * 64 + 1 * k.val = k.val; omega
  | ⟨1, _⟩ => show win3_1.index t (1 : Fin 2) * 1024 + 1 * q.val = q.val; omega

/-- What point t writes back is block t — rows 1024·t … 1024·t + 1023 — of the mixture of the combine weights and the expert outputs. -/
theorem flushed_eq (c : Dev nD) (t : Fin cfg3.N) :
    (dat3 V c).flushed 2 t = ((cfg3.win 2).blk t).view.read (Elt Ideal) (Cert.SoftMoe.mixture (F := Ideal) (V c main_v23) (V c main_v29)) := by
  show (cfg3.win 2).cut (grid3.coords t) ((dat3 V c).after 2 t) = _
  rw [after3_2]
  unfold out3_2
  rw [View.canon_unit_zero hz]
  simp only [View.ld_unit_zero (S := S1024x64) hz, View.ld_unit_zero (S := S64x1024) hz]
  obtain ⟨-, -, -, -, e4, e5⟩ := idx_facts t
  have hN : grid3.N = 8 := N_3
  have ht : t.val < 8 := by have h : t.val < grid3.N := t.isLt; omega
  funext j
  obtain ⟨p, q, rfl⟩ : ∃ (p : Fin 1024) (q : Fin 1024), j = ix2 p q := ⟨j 0, j 1, eq_ix2 j⟩
  have hp : p.val < 1024 := p.isLt
  have hemb : ((cfg3.win 2).blk t).view.emb (ix2 p q) = ix2 (⟨t.val * 1024 + p.val, by omega⟩ : Fin 8192) q :=
    funext fun a => Fin.ext (by
      match a with
      | ⟨0, _⟩ => show win3_2.index t (0 : Fin 2) * 1024 + 1 * p.val = t.val * 1024 + p.val; omega
      | ⟨1, _⟩ => show win3_2.index t (1 : Fin 2) * 1024 + 1 * q.val = q.val; omega)
  show k3_pay1 (iblk3 V c 0 t) (iblk3 V c 1 t) (ix2 p q) = Cert.SoftMoe.mixture (F := Ideal) (V c main_v23) (V c main_v29) (((cfg3.win 2).blk t).view.emb (ix2 p q))
  rw [hemb, Cert.SoftMoe.mixture_apply]
  refine (pay_apply (iblk3 V c 0 t) (iblk3 V c 1 t) p q).trans ?_
  refine Finset.sum_congr rfl fun k _ => ?_
  rw [rows_read V c t p k ⟨t.val * 1024 + p.val, by omega⟩ rfl, whole_read V c t k q]

/-- An entry of the array is in point t's block iff each coordinate is in the block's range on its axis. -/
theorem mem_blk (t : Fin cfg3.N) (i : S8192x1024.Idx) :
    i ∈ ((cfg3.win 2).blk t).view.set ↔ ∀ a : Fin 2, win3_2.index t a * S1024x1024.size a ≤ (i a).val ∧ (i a).val < win3_2.index t a * S1024x1024.size a + S1024x1024.size a := by
  show i ∈ ((View.whole main_v30).slice (win3_2.rect t)).set ↔ _
  rw [View.set_slice_whole, Rect.mem_set_unit]
  exact Iff.rfl

/-- The eight row blocks tile the array — row r lies in the block of point r / 1024 —, so after the region the array
    is the mixture of the combine weights and the expert outputs. -/
theorem arr_eq (c : Dev nD) :
    (dat3 (F := Ideal) V c).arrAt 2 cfg3.N = Cert.SoftMoe.mixture (F := Ideal) (V c main_v23) (V c main_v29) :=
  (dat3 V c).arrAt_eq_of_cover 2 _ (fun t _ => flushed_eq V c t) fun i => by
    have hN : grid3.N = 8 := N_3
    have hi0 : (i 0).val < 8192 := (i 0).isLt
    have hi1 : (i 1).val < 1024 := (i 1).isLt
    have hlt : (i 0).val / 1024 < cfg3.N := by show (i 0).val / 1024 < grid3.N; omega
    obtain ⟨-, -, -, -, e4, e5⟩ := idx_facts ⟨(i 0).val / 1024, hlt⟩
    refine ⟨⟨(i 0).val / 1024, hlt⟩, flush3_2 _, ?_⟩
    rw [mem_blk]
    intro a
    match a with
    | ⟨0, _⟩ =>
      show win3_2.index ⟨(i 0).val / 1024, hlt⟩ (0 : Fin 2) * 1024 ≤ (i 0).val ∧ (i 0).val < win3_2.index ⟨(i 0).val / 1024, hlt⟩ (0 : Fin 2) * 1024 + 1024
      rw [e4]; dsimp only; omega
    | ⟨1, _⟩ =>
      show win3_2.index ⟨(i 0).val / 1024, hlt⟩ (1 : Fin 2) * 1024 ≤ (i 1).val ∧ (i 1).val < win3_2.index ⟨(i 0).val / 1024, hlt⟩ (1 : Fin 2) * 1024 + 1024
      rw [e5]; omega

end Cert.KernelIdeal.Region3

end
-- ==== Proof.RefIsLayer.lean ====
/-
  The reference's result is the layer: its run's result term, the composition of its sixty-one host operations on the
  six arguments, is the specification's function of the same arguments, operation for operation.
-/
import proofs.«138696_j23819888624292_1_alg».proof.Proof.Spec
import proofs.«138696_j23819888624292_1_alg».proof.Proof.Gen.ReferenceIdeal.Run

noncomputable section

namespace Cert.ReferenceIdeal.RefValue

open Cert.ReferenceIdeal Cert.ReferenceIdeal.Gen Cert.ReferenceIdeal.Value Idealize.ShloMosaic Idealize.ShloMosaic.TcCoe Idealize.SL.Sem

set_option maxRecDepth 8192 in
/-- The reference run's result term is the layer of the six arguments' launch contents. -/
theorem result_eq (m : (ℓ : Loc nD τ sig) → Buf (Elt Ideal) ℓ) (c : Dev nD) :
    res_main_v50 (F := Ideal) m c
      = Cert.SoftMoe.layer (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold res_main_v50 Cert.SoftMoe.layer Cert.SoftMoe.layerOf Cert.SoftMoe.byBatch Cert.SoftMoe.mixture Cert.SoftMoe.asRows
    Cert.SoftMoe.experts Cert.SoftMoe.gelu Cert.SoftMoe.hidden Cert.SoftMoe.biasRow1 Cert.SoftMoe.biasRow2 Cert.SoftMoe.bySlot
    Cert.SoftMoe.slotInputs Cert.SoftMoe.combineWeights Cert.SoftMoe.dispatch Cert.SoftMoe.logits Cert.SoftMoe.toks
  rfl

end Cert.ReferenceIdeal.RefValue

end
-- ==== Proof.BiasRows.lean ====
/-
  A per-expert bias array [32, n] given a unit slot axis, [32, 1, n]: by a reshape (row-major order kept) or by a
  broadcast along axes 0 and 2. Both read entry (e, 0, q) of the result at entry (e, q) of the array, so they are the
  same array.
-/
import proofs.«138696_j23819888624292_1_alg».proof.Proof.Spec
import Idealize.ShloMosaic.Lib.Pipeline.Value
import Idealize.ShloMosaic.Lib.ValueIdx

noncomputable section

namespace Cert.SoftMoe

open Cert.ReferenceIdeal Cert.ReferenceIdeal.Gen Idealize.ShloMosaic Idealize.ShloMosaic.TcCoe Idealize.ShloMosaic.ValueIdx

variable {F : FTy → Type} [FloatOps F]

/-- The first layer's bias: the reshape [32, 4096] → [32, 1, 4096] is the broadcast. -/
theorem reshape_eq_biasRow1 (a3 : Arr F S32x4096) (h : S32x4096.ShapeCasts S32x1x4096) :
    shapeCast S32x1x4096 a3 h = biasRow1 (F := F) a3 := by
  funext i
  unfold biasRow1
  obtain ⟨e, z, q, rfl⟩ : ∃ (e : Fin 32) (z : Fin 1) (q : Fin 4096), i = ix3 e z q := ⟨i 0, i 1, i 2, eq_ix3 i⟩
  have hz : z.val = 0 := by have := z.isLt; omega
  rw [shapeCast_apply a3 h (ix3 e z q) (ix2 e q) (by
        rewrite [Shape.rowMajor_val_two, Shape.rowMajor_val_three]
        show e.val * 4096 + q.val = (e.val * 1 + z.val) * 4096 + q.val
        omega),
    broadcastInDim_apply (![0, 2] : Fin 2 → Fin 3) bcast_S32x4096_S32x1x4096_0_2 a3 (ix3 e z q) (ix2 e q) (fun a => match a with
      | ⟨0, _⟩ => rfl
      | ⟨1, _⟩ => rfl)]

/-- The second layer's bias: the reshape [32, 1024] → [32, 1, 1024] is the broadcast. -/
theorem reshape_eq_biasRow2 (a5 : Arr F S32x1024) (h : S32x1024.ShapeCasts S32x1x1024) :
    shapeCast S32x1x1024 a5 h = biasRow2 (F := F) a5 := by
  funext i
  unfold biasRow2
  obtain ⟨e, z, q, rfl⟩ : ∃ (e : Fin 32) (z : Fin 1) (q : Fin 1024), i = ix3 e z q := ⟨i 0, i 1, i 2, eq_ix3 i⟩
  have hz : z.val = 0 := by have := z.isLt; omega
  rw [shapeCast_apply a5 h (ix3 e z q) (ix2 e q) (by
        rewrite [Shape.rowMajor_val_two, Shape.rowMajor_val_three]
        show e.val * 1024 + q.val = (e.val * 1 + z.val) * 1024 + q.val
        omega),
    broadcastInDim_apply (![0, 2] : Fin 2 → Fin 3) bcast_S32x1024_S32x1x1024_0_2 a5 (ix3 e z q) (ix2 e q) (fun a => match a with
      | ⟨0, _⟩ => rfl
      | ⟨1, _⟩ => rfl)]

end Cert.SoftMoe

end
-- ==== Proof.lean ====
/-
  A soft mixture of experts: a Pallas kernel in four launches against its jax.numpy reference, equal on the extended reals.

  Both programs compute, from tokens [4, 2048, 1024], a router matrix W [1024, 64] and the weights of 32 experts with
  2 slots each (w1 [32, 1024, 4096], b1 [32, 4096], w2 [32, 4096, 1024], b2 [32, 1024]):
    logits = toks · W; dispatch = softmax of the logits over the 8192 tokens; weights = softmax of the logits over the
    64 slots; slot inputs = dispatchᵀ · toks; per expert, gelu (x · w1 + b1) · w2 + b2 with gelu in its tanh form;
    result = weights · (the 64 expert outputs).
  The reference does this with whole-array host operations. The kernel does the four products in four launches —
  the logits and the final mixture tiled over blocks of 1024 token rows, the slot inputs accumulated over the eight
  token blocks from zero, each expert's two layers accumulated over two bands of 2048 hidden units from zero with the
  bias added after the second band — and the two softmaxes by the same host operations as the reference, between
  the launches. On the extended reals a change of float format is the identity and a product is an exact finite
  sum, so the kernel's tiling only regroups sums: the two results differ by associativity and commutativity of + and
  of · alone (gelu's cube is h · (h · h) in the kernel and (h · h) · h in the reference), and no finiteness of the
  inputs is used.

  The modules: Spec (the layer as one function, in the reference's operations), SpecAt (its products read at an
  entry), KernelDots (the kernel's five products read at an entry), Region0 … Region3 (what each launch leaves in its
  output array, as a function of the arrays it is entered with), KernelRun (the kernel's run with the result kept),
  KernelWalk (the run walked back from the return to the launch), RefIsLayer (the reference's run is the layer),
  BiasRows (a bias array given a unit axis by a reshape or by a broadcast is the same array); here, the claims.
-/
import proofs.«138696_j23819888624292_1_alg».proof.Defs
import proofs.«138696_j23819888624292_1_alg».proof.Proof.Gen.Kernel
import proofs.«138696_j23819888624292_1_alg».proof.Proof.Gen.Kernel.Skeleton
import proofs.«138696_j23819888624292_1_alg».proof.Proof.Gen.Kernel.Launch
import proofs.«138696_j23819888624292_1_alg».proof.Proof.Gen.Kernel.Points
import proofs.«138696_j23819888624292_1_alg».proof.Proof.Gen.Kernel.Frame
import proofs.«138696_j23819888624292_1_alg».proof.Proof.Gen.KernelIdeal
import proofs.«138696_j23819888624292_1_alg».proof.Proof.Gen.KernelIdeal.Skeleton
import proofs.«138696_j23819888624292_1_alg».proof.Proof.Gen.KernelIdeal.Launch
import proofs.«138696_j23819888624292_1_alg».proof.Proof.Gen.KernelIdeal.Points
import proofs.«138696_j23819888624292_1_alg».proof.Proof.Gen.KernelIdeal.Frame
import proofs.«138696_j23819888624292_1_alg».proof.Proof.Gen.ReferenceIdeal
import proofs.«138696_j23819888624292_1_alg».proof.Proof.Gen.ReferenceIdeal.Run
import proofs.«138696_j23819888624292_1_alg».proof.Proof.Gen.ReferenceIdeal.Read
import proofs.«138696_j23819888624292_1_alg».proof.Proof.Gen.Pre_finite_inputs
import proofs.«138696_j23819888624292_1_alg».proof.Proof.KernelRun
import proofs.«138696_j23819888624292_1_alg».proof.Proof.KernelWalk
import proofs.«138696_j23819888624292_1_alg».proof.Proof.Region0
import proofs.«138696_j23819888624292_1_alg».proof.Proof.Region1
import proofs.«138696_j23819888624292_1_alg».proof.Proof.Region2
import proofs.«138696_j23819888624292_1_alg».proof.Proof.Region3
import proofs.«138696_j23819888624292_1_alg».proof.Proof.RefIsLayer
import proofs.«138696_j23819888624292_1_alg».proof.Proof.BiasRows
import Idealize.ShloMosaic.Adequacy
import Idealize.ShloMosaic.Init

noncomputable section

namespace Cert.Proof

open Idealize.ShloMosaic Idealize.ShloMosaic.TcCoe Idealize.SL.Sem

/-- The idealized kernel's result array at the last boundary of its run is the layer of the six arguments: the walk back
    through the run with the four regions' output arrays read, and the two reshaped bias arrays seen as the broadcasts. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W9 m ρ c (Proc.devRef .tc Cert.KernelIdeal.main_v31)
      = Cert.SoftMoe.layer (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) := by
  refine (Cert.KernelIdeal.Walk.result_eq m ρ Cert.KernelIdeal.Region0.arr_eq Cert.KernelIdeal.Region1.arr_eq
    Cert.KernelIdeal.Region2.arr_eq Cert.KernelIdeal.Region3.arr_eq c).trans ?_
  unfold Cert.SoftMoe.layer
  rw [Cert.SoftMoe.reshape_eq_biasRow1, Cert.SoftMoe.reshape_eq_biasRow2]

theorem frame_kernel : Cert.frame_Kernel := fun m ρ _ => Cert.Kernel.Gen.frame m ρ
theorem frame_kernelIdeal : Cert.frame_KernelIdeal := fun m ρ _ => Cert.KernelIdeal.Gen.frame m ρ
/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- On the extended reals both programs end with the layer of the six arguments in their result arrays: the kernel by
    its run read back region by region, the reference by its run's composed term; the arguments agree. -/
theorem algebraic : Cert.algebraic_KernelIdeal_ReferenceIdeal := by
  intro m ρ m' ρ' _ hagree
  refine ⟨fun c => Cert.SoftMoe.layer (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono (fun _ h c => ⟨(h c).1.trans (kernel_result m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.result_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
